-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x1024x3 : Shape := ⟨3, ![1, 1024, 3]⟩
abbrev S1x3x2048 : Shape := ⟨3, ![1, 3, 2048]⟩
abbrev S1x1x8192 : Shape := ⟨3, ![1, 1, 8192]⟩
abbrev S1024x3 : Shape := ⟨2, ![1024, 3]⟩
abbrev S3x2048 : Shape := ⟨2, ![3, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x8 : Shape := ⟨2, ![1024, 8]⟩
abbrev S8x2048 : Shape := ⟨2, ![8, 2048]⟩
abbrev S1024x2048 : Shape := ⟨2, ![1024, 2048]⟩
abbrev S1024x16x128 : Shape := ⟨3, ![1024, 16, 128]⟩
abbrev S1024x128 : Shape := ⟨2, ![1024, 128]⟩
abbrev S1x1x1024 : Shape := ⟨3, ![1, 1, 1024]⟩
abbrev S1x1x2048 : Shape := ⟨3, ![1, 1, 2048]⟩
abbrev S4x8192 : Shape := ⟨2, ![4, 8192]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x1x8192, .f32⟩
  | .hbm, ⟨4, _⟩ => ⟨S4x1x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg1 : BitVec 32 := BitVec.ofNat 32 (i 1).val
  let c1024_i32 : BitVec 32 := 1024#32
  let v28 : BitVec 32 := Scalar.muli arg1 c1024_i32
  v28
def k0_mult2 (i : grid0.Coords) : BitVec 32 :=
  let arg2 : BitVec 32 := BitVec.ofNat 32 (i 2).val
  let c2048_i32 : BitVec 32 := 2048#32
  let v30 : BitVec 32 := Scalar.muli arg2 c2048_i32
  v30
def k0_off1 (i : grid0.Coords) : Fin 3 → Nat :=
  let c0_17 : Index := 0#32
  let c0_18 : Index := 0#32
  let arg1 : BitVec 32 := BitVec.ofNat 32 (i 1).val
  let c1024_i32 : BitVec 32 := 1024#32
  let v28 : BitVec 32 := Scalar.muli arg1 c1024_i32
  let v29 : BitVec 32 := v28
  let v32 : Index := Scalar.indexCast v29
  ![0, 0, v32.toNat]
def k0_off2 (i : grid0.Coords) : Fin 3 → Nat :=
  let c0_21 : Index := 0#32
  let c0_22 : Index := 0#32
  let arg2 : BitVec 32 := BitVec.ofNat 32 (i 2).val
  let c2048_i32 : BitVec 32 := 2048#32
  let v30 : BitVec 32 := Scalar.muli arg2 c2048_i32
  let v31 : BitVec 32 := v30
  let v40 : Index := Scalar.indexCast v31
  ![0, 0, v40.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1x1x8192_S1x1x8192_0_0_0 : ∀ a, (![0, 0, 0] : Fin 3 → Nat) a + S1x1x8192.size a ≤ S1x1x8192.size a
  h_S1x1x8192 : 0 < S1x1x8192.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  concatenates_S1024x3_S1024x1_S1024x1_S1024x3_S1024x8_d1 : Shape.Concatenates [S1024x3, S1024x1, S1024x1, S1024x3] S1024x8 1
  concatenates_S3x2048_S1x2048_S1x2048_S3x2048_S8x2048_d0 : Shape.Concatenates [S3x2048, S1x2048, S1x2048, S3x2048] S8x2048 0
  shapeCasts_S1024x2048_S1024x16x128 : S1024x2048.ShapeCasts S1024x16x128
  reduces_S1024x16x128_S1024x128 : S1024x16x128.Reduces [1] S1024x128
  reduces_S1024x128_S1024 : S1024x128.Reduces [1] S1024
  reduces_S1024x2048_S2048 : S1024x2048.Reduces [0] S2048
  h_S1x1x1024 : 0 < S1x1x1024.numel
  shapeCasts_S1x1x1024_S1024 : S1x1x1024.ShapeCasts S1024
  shapeCasts_S1024_S1x1x1024 : S1024.ShapeCasts S1x1x1024
  h_S1x1x2048 : 0 < S1x1x2048.numel
  shapeCasts_S1x1x2048_S2048 : S1x1x2048.ShapeCasts S2048
  shapeCasts_S2048_S1x1x2048 : S2048.ShapeCasts S1x1x2048
  shapeCasts_S4x1x8192_S4x8192 : S4x1x8192.ShapeCasts S4x8192
  reducesTo_S4x8192_S_d0_1 : S4x8192.ReducesTo [0, 1] S_
  h_S_ : 0 < S_.numel
  dot_S1024x8_S8x2048_S1024x2048_1_0_0_1_n_n_wf : DotDims.WF S1024x8 S8x2048 S1024x2048 [1] [0] [0] [1] [] []
  hrank0 : 0 < grid0.rank
  k0_mult1_dvd : ∀ i : grid0.Coords, 1024 ∣ (k0_mult1 i).toNat
  k0_mult2_dvd : ∀ i : grid0.Coords, 2048 ∣ (k0_mult2 i).toNat
  k0_off1_inb : ∀ i : grid0.Coords, ∀ a, (k0_off1 i) a + S1x1x1024.size a ≤ S1x1x8192.size a
  k0_off2_inb : ∀ i : grid0.Coords, ∀ a, (k0_off2 i) a + S1x1x2048.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x8192.size a
  hwx0_1 : ∀ i : grid0.Coords, EltTy.bits .f32 = 32 ∨ (Rect.block (s := S4x3x8192) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S4x1x8192.size a
  hwx0_2 : ∀ i : grid0.Coords, EltTy.bits .f32 = 32 ∨ (Rect.block (s := S4x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BitsStep.lean ====
/-
  What one grid point does to the two result blocks, as pure functions of the point's input blocks.

  A result block holds 8192 running minima. At a point with row tile `i 1` and column tile `i 2` the body lowers
  the 1024 entries of the first block that belong to the row tile to the minimum of what they hold and the least
  entry of the matching row of the point's tile of squared distances (`low1`), and likewise the 2048 entries of the
  second block that belong to the column tile, with the least entry of each column (`low2`). Entries outside the
  tile's range are left as they are.
-/
import proofs.«167252_j2542620639339_2_alg».proof.Proof.Gen.Kernel.Skeleton
import Idealize.ShloMosaic.Lib.WritesUnit
import Idealize.ShloMosaic.Lib.Pipeline.FrameBody

noncomputable section

namespace Cert.Kernel.Step

open Cert.Kernel Cert.Kernel.Gen Idealize.ShloMosaic

variable {F : FTy → Type} [FloatOps F]

/-- The first result block after a point: on the point's row tile the minimum of the old entry and the row's least
    squared distance, elsewhere the old entry. -/
def low1 (i : grid0.Coords) (x0 : Vec F S1x1024x3 .f32) (x1 : Vec F S1x3x2048 .f32) (o : Vec F S1x1x8192 .f32) :
    Vec F S1x1x8192 .f32 := fun y =>
  if h : ∀ a, k0_off1 i a ≤ (y a).val ∧ (y a).val < k0_off1 i a + S1x1x1024.size a then
    k0_pay1 (k0_pay6 x0 x1) (View.ld o (Rect.unit (s := S1x1x8192) (k0_off1 i) S1x1x1024.size (Facts₀.k0_off1_inb i)))
      (Rect.unitLocal (s := S1x1x8192) (off := k0_off1 i) (size := S1x1x1024.size) y h)
  else o y

/-- The second result block after a point: on the point's column tile the minimum of the old entry and the column's
    least squared distance, elsewhere the old entry. -/
def low2 (i : grid0.Coords) (x0 : Vec F S1x1024x3 .f32) (x1 : Vec F S1x3x2048 .f32) (o : Vec F S1x1x8192 .f32) :
    Vec F S1x1x8192 .f32 := fun y =>
  if h : ∀ a, k0_off2 i a ≤ (y a).val ∧ (y a).val < k0_off2 i a + S1x1x2048.size a then
    k0_pay2 (k0_pay7 x0 x1) (View.ld o (Rect.unit (s := S1x1x8192) (k0_off2 i) S1x1x2048.size (Facts₀.k0_off2_inb i)))
      (Rect.unitLocal (s := S1x1x8192) (off := k0_off2 i) (size := S1x1x2048.size) y h)
  else o y

end Cert.Kernel.Step

end
-- ==== Proof.BitsStepRead.lean ====
/-
  The stores of one grid point read back.

  A result block's staging buffer, after the body's stores, reads as the pure update of Step.lean: under the newest
  store's range (the point's row tile, resp. column tile) the stored minimum, elsewhere what was there before — the
  previous contents at an ordinary point, the block of +∞ just stored at a batch's first point (that first store covers
  the whole block, so nothing of what the buffer held earlier is left).
-/
import proofs.«167252_j2542620639339_2_alg».proof.Proof.BitsStep
import Idealize.ShloMosaic.Lib.Pipeline.Frame

set_option maxRecDepth 16384

noncomputable section

namespace Cert.Kernel.Step

open Cert.Kernel Cert.Kernel.Gen Idealize.ShloMosaic

variable {F : FTy → Type} [FloatOps F]

theorem zero3 : (![0, 0, 0] : Fin 3 → ℕ) = fun _ => 0 := funext fun a => by fin_cases a <;> rfl

/-- A store through the whole block leaves the stored block, whatever was there. -/
theorem read_reset (a : Memref sig .tc .vmem S1x1x8192 .f32) (f : a.view.ty.Contents (Elt F)) (w : Vec F S1x1x8192 .f32) :
    a.view.read (Elt F) (a.view.writes (Elt F) f
      [⟨Rect.unit (s := S1x1x8192) ![0, 0, 0] S1x1x8192.size Facts₀.inb_S1x1x8192_S1x1x8192_0_0_0, w⟩]) = w := by
  funext y
  exact View.read_writes_cons_unit_of_mem a.view f Facts₀.inb_S1x1x8192_S1x1x8192_0_0_0 w [] y y rfl
    (fun b => by rw [congrFun zero3 b, Nat.zero_add])

/-- An ordinary point, first result block: the one store over the previous contents `o`. -/
theorem read_low1_next (a : Memref sig .tc .vmem S1x1x8192 .f32) (ha : a.IsWhole) (i : grid0.Coords)
    (x0 : Vec F S1x1024x3 .f32) (x1 : Vec F S1x3x2048 .f32) (o : Vec F S1x1x8192 .f32) :
    a.view.read (Elt F) (a.view.writes (Elt F) (ha.unread o)
      [⟨Rect.unit (s := S1x1x8192) (k0_off1 i) S1x1x1024.size (Facts₀.k0_off1_inb i),
        k0_pay1 (k0_pay6 x0 x1) (View.ld o (Rect.unit (s := S1x1x8192) (k0_off1 i) S1x1x1024.size (Facts₀.k0_off1_inb i)))⟩])
      = low1 i x0 x1 o := by
  funext y
  rw [View.read_writes_cons_unit a.view (ha.unread o) (Facts₀.k0_off1_inb i) _ [] y rfl]
  unfold low1
  by_cases h : ∀ b, k0_off1 i b ≤ (y b).val ∧ (y b).val < k0_off1 i b + S1x1x1024.size b
  · rw [dif_pos h, dif_pos h]
  · rw [dif_neg h, dif_neg h, View.writes_nil]; exact congrFun (ha.read_unread o) y

/-- An ordinary point, second result block. -/
theorem read_low2_next (a : Memref sig .tc .vmem S1x1x8192 .f32) (ha : a.IsWhole) (i : grid0.Coords)
    (x0 : Vec F S1x1024x3 .f32) (x1 : Vec F S1x3x2048 .f32) (o : Vec F S1x1x8192 .f32) :
    a.view.read (Elt F) (a.view.writes (Elt F) (ha.unread o)
      [⟨Rect.unit (s := S1x1x8192) (k0_off2 i) S1x1x2048.size (Facts₀.k0_off2_inb i),
        k0_pay2 (k0_pay7 x0 x1) (View.ld o (Rect.unit (s := S1x1x8192) (k0_off2 i) S1x1x2048.size (Facts₀.k0_off2_inb i)))⟩])
      = low2 i x0 x1 o := by
  funext y
  rw [View.read_writes_cons_unit a.view (ha.unread o) (Facts₀.k0_off2_inb i) _ [] y rfl]
  unfold low2
  by_cases h : ∀ b, k0_off2 i b ≤ (y b).val ∧ (y b).val < k0_off2 i b + S1x1x2048.size b
  · rw [dif_pos h, dif_pos h]
  · rw [dif_neg h, dif_neg h, View.writes_nil]; exact congrFun (ha.read_unread o) y

/-- A batch's first point, first result block: the update over the block of +∞ stored just before, which the
    update's own load reads back. -/
theorem read_low1_first (a : Memref sig .tc .vmem S1x1x8192 .f32) (f : a.view.ty.Contents (Elt F)) (i : grid0.Coords)
    (x0 : Vec F S1x1024x3 .f32) (x1 : Vec F S1x3x2048 .f32) :
    a.view.read (Elt F) (a.view.writes (Elt F) f
      [⟨Rect.unit (s := S1x1x8192) (k0_off1 i) S1x1x1024.size (Facts₀.k0_off1_inb i),
        k0_pay1 (k0_pay6 x0 x1) (View.ld (a.view.read (Elt F) (a.view.writes (Elt F) f
            [⟨Rect.unit (s := S1x1x8192) ![0, 0, 0] S1x1x8192.size Facts₀.inb_S1x1x8192_S1x1x8192_0_0_0, k0_pay3⟩]))
          (Rect.unit (s := S1x1x8192) (k0_off1 i) S1x1x1024.size (Facts₀.k0_off1_inb i)))⟩,
       ⟨Rect.unit (s := S1x1x8192) ![0, 0, 0] S1x1x8192.size Facts₀.inb_S1x1x8192_S1x1x8192_0_0_0, k0_pay3⟩])
      = low1 i x0 x1 k0_pay3 := by
  rw [read_reset a f k0_pay3]
  funext y
  rw [View.read_writes_cons_unit a.view f (Facts₀.k0_off1_inb i) _ _ y rfl]
  unfold low1
  by_cases h : ∀ b, k0_off1 i b ≤ (y b).val ∧ (y b).val < k0_off1 i b + S1x1x1024.size b
  · rw [dif_pos h, dif_pos h]
  · rw [dif_neg h, dif_neg h]; exact congrFun (read_reset a f k0_pay3) y

/-- A batch's first point, second result block. -/
theorem read_low2_first (a : Memref sig .tc .vmem S1x1x8192 .f32) (f : a.view.ty.Contents (Elt F)) (i : grid0.Coords)
    (x0 : Vec F S1x1024x3 .f32) (x1 : Vec F S1x3x2048 .f32) :
    a.view.read (Elt F) (a.view.writes (Elt F) f
      [⟨Rect.unit (s := S1x1x8192) (k0_off2 i) S1x1x2048.size (Facts₀.k0_off2_inb i),
        k0_pay2 (k0_pay7 x0 x1) (View.ld (a.view.read (Elt F) (a.view.writes (Elt F) f
            [⟨Rect.unit (s := S1x1x8192) ![0, 0, 0] S1x1x8192.size Facts₀.inb_S1x1x8192_S1x1x8192_0_0_0, k0_pay4⟩]))
          (Rect.unit (s := S1x1x8192) (k0_off2 i) S1x1x2048.size (Facts₀.k0_off2_inb i)))⟩,
       ⟨Rect.unit (s := S1x1x8192) ![0, 0, 0] S1x1x8192.size Facts₀.inb_S1x1x8192_S1x1x8192_0_0_0, k0_pay4⟩])
      = low2 i x0 x1 k0_pay4 := by
  rw [read_reset a f k0_pay4]
  funext y
  rw [View.read_writes_cons_unit a.view f (Facts₀.k0_off2_inb i) _ _ y rfl]
  unfold low2
  by_cases h : ∀ b, k0_off2 i b ≤ (y b).val ∧ (y b).val < k0_off2 i b + S1x1x2048.size b
  · rw [dif_pos h, dif_pos h]
  · rw [dif_neg h, dif_neg h]; exact congrFun (read_reset a f k0_pay4) y

end Cert.Kernel.Step

end
-- ==== Proof.BitsBodyRuns.lean ====
/-
  The kernel body, run once for each of its two control cases, on any whole staging buffers.

  At the first point of a batch (row tile 0 and column tile 0) the body first fills both result blocks with +∞ and
  then does what it does at every point: it forms the tile of squared distances of its 1024 rows against its 2048
  columns, takes the least entry of each row and of each column, and lowers the matching 1024 entries of the first
  result block and 2048 entries of the second to the minimum of what they hold and the new value. Each run says:
  started on staging buffers holding the two input blocks and the result blocks' current contents, the body ends with
  the input blocks untouched and each result buffer at the pure update of Step.lean — over the previous contents at an
  ordinary point, over the block of +∞ at a batch's first point, where the previous contents do not matter.
-/
import proofs.«167252_j2542620639339_2_alg».proof.Proof.Gen.Kernel.Frame
import proofs.«167252_j2542620639339_2_alg».proof.Proof.Gen.Kernel.Skeleton
import proofs.«167252_j2542620639339_2_alg».proof.Proof.BitsStepRead
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Step

/-- The body resets the result blocks exactly when the row-tile and column-tile coordinates are both zero. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- Over the grid of 4 × 8 × 4 points in row-major order, those are the points whose number is a multiple of 32. -/
theorem isFirst_iff : ∀ t : Fin cfg0.N, isFirst (grid0.coords t) ↔ t.val % 32 = 0 :=
  (by decide +kernel : ∀ t : Fin grid0.N, isFirst (grid0.coords t) ↔ t.val % 32 = 0)

/-- The current staging buffer of each window at point `t`, and that it is a whole buffer. -/
abbrev sb0 (t : Fin cfg0.N) : Memref sig .tc .vmem S1x1024x3 .f32 := win0_0.stage (cfg0.slots t 0)
abbrev hsb0 (t : Fin cfg0.N) : (sb0 t).IsWhole := hstage0_0 ((cfg0.slots t 0).cast nbuf0_0)
abbrev sb1 (t : Fin cfg0.N) : Memref sig .tc .vmem S1x3x2048 .f32 := win0_1.stage (cfg0.slots t 1)
abbrev hsb1 (t : Fin cfg0.N) : (sb1 t).IsWhole := hstage0_1 ((cfg0.slots t 1).cast nbuf0_1)
abbrev sb2 (t : Fin cfg0.N) : Memref sig .tc .vmem S1x1x8192 .f32 := win0_2.stage (cfg0.slots t 2)
abbrev hsb2 (t : Fin cfg0.N) : (sb2 t).IsWhole := hstage0_2 ((cfg0.slots t 2).cast nbuf0_2)
abbrev sb3 (t : Fin cfg0.N) : Memref sig .tc .vmem S1x1x8192 .f32 := win0_3.stage (cfg0.slots t 3)
abbrev hsb3 (t : Fin cfg0.N) : (sb3 t).IsWhole := hstage0_3 ((cfg0.slots t 3).cast nbuf0_3)

set_option maxHeartbeats 1000000 in
/-- The run at a batch's first point: the result buffers may hold anything. -/
theorem runFirst (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x8192 .f32) (harg5 : arg5.IsWhole) (arg6 : Memref sig .tc .vmem S1x1x8192 .f32) (harg6 : arg6.IsWhole) (hc : isFirst i)
    (x0 : Vec F S1x1024x3 .f32) (x1 : Vec F S1x3x2048 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ owns (c : Thread nD τ) arg5 fullShare (low1 i x0 x1 k0_pay3)
                ∗ owns (c : Thread nD τ) arg6 fullShare (low2 i x0 x1 k0_pay4)) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1

    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      simp only [View.readAt_eq_ld, harg3.read_unread, harg4.read_unread, View.ld_unit_zero (S := S1x1024x3) zero3, View.ld_unit_zero (S := S1x3x2048) zero3]
      exact read_low1_first arg5 _ i x0 x1
    iexists _; isplitr; swap; · iexact H3
    ipureintro
    sl_unfold_run_names
    simp only [View.readAt_eq_ld, harg3.read_unread, harg4.read_unread, View.ld_unit_zero (S := S1x1024x3) zero3, View.ld_unit_zero (S := S1x3x2048) zero3]
    exact read_low2_first arg6 _ i x0 x1

set_option maxHeartbeats 1000000 in
/-- The run at an ordinary point: the result buffers hold `o1`, `o2`. -/
theorem runNext (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x8192 .f32) (harg5 : arg5.IsWhole) (arg6 : Memref sig .tc .vmem S1x1x8192 .f32) (harg6 : arg6.IsWhole) (hc : ¬isFirst i)
    (x0 : Vec F S1x1024x3 .f32) (x1 : Vec F S1x3x2048 .f32) (o1 o2 : Vec F S1x1x8192 .f32) :
      ∀ (E : Set ℕ) (K : PUnit → sProp 𝕄),
        iprop(owns (c : Thread nD τ) arg3 fullShare x0 ∗ owns (c : Thread nD τ) arg4 fullShare x1 ∗ owns (c : Thread nD τ) arg5 fullShare o1 ∗ owns (c : Thread nD τ) arg6 fullShare o2
            ∗ (iprop(owns (c : Thread nD τ) arg3 fullShare x0 ∗ owns (c : Thread nD τ) arg4 fullShare x1
                ∗ owns (c : Thread nD τ) arg5 fullShare (low1 i x0 x1 o1)
                ∗ owns (c : Thread nD τ) arg6 fullShare (low2 i x0 x1 o2)) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      simp only [View.readAt_eq_ld, harg3.read_unread, harg4.read_unread, harg5.read_unread, View.ld_unit_zero (S := S1x1024x3) zero3, View.ld_unit_zero (S := S1x3x2048) zero3]
      exact read_low1_next arg5 harg5 i x0 x1 o1
    iexists _; isplitr; swap; · iexact H3
    ipureintro
    sl_unfold_run_names
    simp only [View.readAt_eq_ld, harg3.read_unread, harg4.read_unread, harg6.read_unread, View.ld_unit_zero (S := S1x1024x3) zero3, View.ld_unit_zero (S := S1x3x2048) zero3]
    exact read_low2_next arg6 harg6 i x0 x1 o2

end Cert.Kernel.Body

end
-- ==== Proof.BitsBody.lean ====
/-
  The proof data of the one pipelined region and its frame run.

  The two input windows hold, at every grid point, the blocks of the two argument arrays the point's index maps select.
  The two result windows are accumulators: each is written back once per batch, after the batch's 32nd point, and
  between write-backs its staging buffer keeps what the previous point left. What the buffers hold after point `n`
  is therefore a recursion on `n` (`outs`): at the first point of a batch the blocks are reset to +∞ and updated,
  at any other point the previous contents are updated. The body meets this description at every point
  (`sound_body`), so the library's frame run applies: every weakly fair execution terminates without a fault, the
  argument arrays unchanged, each result array at what the write-backs put there, and the host lines after the region
  computed from those.
-/
import proofs.«167252_j2542620639339_2_alg».proof.Proof.BitsBodyRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Step

variable (m : (ℓ : Loc nD τ sig) → Buf (Elt F) ℓ) (ρ : Dev nD → PrngReg)

/-- What the two result blocks' staging buffers hold after the body at point `n`: reset and updated at the first point
    of a batch, the previous point's contents updated otherwise. -/
def outs (c : Dev nD) : (n : ℕ) → n < cfg0.N → Vec F S1x1x8192 .f32 × Vec F S1x1x8192 .f32
  | 0, h => (low1 (grid0.coords ⟨0, h⟩) (iblk m c 0 ⟨0, h⟩) (iblk m c 1 ⟨0, h⟩) k0_pay3,
      low2 (grid0.coords ⟨0, h⟩) (iblk m c 0 ⟨0, h⟩) (iblk m c 1 ⟨0, h⟩) k0_pay4)
  | n + 1, h =>
    if (n + 1) % 32 = 0 then
      (low1 (grid0.coords ⟨n + 1, h⟩) (iblk m c 0 ⟨n + 1, h⟩) (iblk m c 1 ⟨n + 1, h⟩) k0_pay3,
        low2 (grid0.coords ⟨n + 1, h⟩) (iblk m c 0 ⟨n + 1, h⟩) (iblk m c 1 ⟨n + 1, h⟩) k0_pay4)
    else
      (low1 (grid0.coords ⟨n + 1, h⟩) (iblk m c 0 ⟨n + 1, h⟩) (iblk m c 1 ⟨n + 1, h⟩) (outs c n (Nat.lt_of_succ_lt h)).1,
        low2 (grid0.coords ⟨n + 1, h⟩) (iblk m c 0 ⟨n + 1, h⟩) (iblk m c 1 ⟨n + 1, h⟩) (outs c n (Nat.lt_of_succ_lt h)).2)

/-- At the first point of a batch. -/
theorem outs_first (c : Dev nD) (t : Fin cfg0.N) (h0 : t.val % 32 = 0) :
    outs m c t.val t.isLt = (low1 (grid0.coords t) (iblk m c 0 t) (iblk m c 1 t) k0_pay3,
      low2 (grid0.coords t) (iblk m c 0 t) (iblk m c 1 t) k0_pay4) := by
  obtain ⟨n, hn⟩ := t
  cases n with
  | zero => exact rfl
  | succ n => exact (if_pos h0).trans rfl

/-- At any other point. -/
theorem outs_next (c : Dev nD) (t : Fin cfg0.N) (h0 : ¬t.val % 32 = 0) :
    outs m c t.val t.isLt = (low1 (grid0.coords t) (iblk m c 0 t) (iblk m c 1 t) (outs m c (t.val - 1) (Nat.lt_of_le_of_lt (Nat.sub_le _ _) t.isLt)).1,
      low2 (grid0.coords t) (iblk m c 0 t) (iblk m c 1 t) (outs m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-- The proof data on core `c`: the arrays as the region finds them; after each point the inputs' buffers at their
    blocks and the result buffers at `outs`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outs m c t.val t.isLt).1 := by dsimp only [dats]
theorem after3 (c : Dev nD) (t : Fin cfg0.N) : (dats m 0 c).after 3 t = (outs m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Away from the first point of a batch a result buffer holds what the point before left: it was not written back
    in between (write-backs follow the last point of a batch only). -/
theorem before2_next (c : Dev nD) (t : Fin cfg0.N) (h0 : ¬t.val % 32 = 0) (d) :
    (dats m 0 c).before 2 t d = (outs m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_next (c : Dev nD) (t : Fin cfg0.N) (h0 : ¬t.val % 32 = 0) (d) :
    (dats m 0 c).before 3 t d = (outs m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-- At the first point of a batch a result buffer is fresh (the grid's first point, or right after a write-back):
    it holds anything. -/
theorem before2_first (c : Dev nD) (t : Fin cfg0.N) (h0 : t.val % 32 = 0) (d) : (dats m 0 c).before 2 t d = d := by
  have hN : t.val < 128 := lt_of_lt_of_eq t.isLt (show cfg0.N = 128 from N_0)
  refine Dat.before_out_reset _ 2 rfl t ?_ d
  by_cases ht : t.val = 0
  · exact .inl ht
  · exact .inr ⟨ht, (flush0_2 _).mpr (by dsimp only; omega)⟩
theorem before3_first (c : Dev nD) (t : Fin cfg0.N) (h0 : t.val % 32 = 0) (d) : (dats m 0 c).before 3 t d = d := by
  have hN : t.val < 128 := lt_of_lt_of_eq t.isLt (show cfg0.N = 128 from N_0)
  refine Dat.before_out_reset _ 3 rfl t ?_ d
  by_cases ht : t.val = 0
  · exact .inl ht
  · exact .inr ⟨ht, (flush0_3 _).mpr (by dsimp only; omega)⟩

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (sb0 t) fullShare ((dats m 0 c).before 0 t d))
    ∗ (∃ d, owns (c : Thread nD τ) (sb1 t) fullShare ((dats m 0 c).before 1 t d))
    ∗ (∃ d, owns (c : Thread nD τ) (sb2 t) fullShare ((dats m 0 c).before 2 t d))
    ∗ (∃ d, owns (c : Thread nD τ) (sb3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (sb0 t) fullShare ((dats m 0 c).after 0 t)
    ∗ owns (c : Thread nD τ) (sb1 t) fullShare ((dats m 0 c).after 1 t)
    ∗ owns (c : Thread nD τ) (sb2 t) fullShare ((dats m 0 c).after 2 t)
    ∗ owns (c : Thread nD τ) (sb3 t) fullShare ((dats m 0 c).after 3 t))

set_option maxHeartbeats 800000 in
/-- The body at any point: the inputs' buffers hold their blocks; the point's number says which of the two cases it
    is in; a result buffer holds anything at a batch's first point and what the point before left otherwise; the
    matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 32 = 0
  · rw [outs_first m c t h0]
    simp only [before2_first m c t h0, before3_first m c t h0]
    iintro ⟨HΦ, Ho, ⟨%d0, H0⟩, ⟨%d1, H1⟩, ⟨%d2, H2⟩, ⟨%d3, H3⟩⟩
    iapply ((runFirst c (grid0.coords t) _ _ _ _ _ _ _ _ ((isFirst_iff t).mpr h0) (iblk m c 0 t) (iblk m c 1 t)) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs_next m c t h0]
    simp only [before2_next m c t h0, before3_next m c t h0]
    iintro ⟨HΦ, Ho, ⟨%d0, H0⟩, ⟨%d1, H1⟩, ⟨%d2, H2⟩, ⟨%d3, H3⟩⟩
    iapply ((runNext c (grid0.coords t) _ _ _ _ _ _ _ _ (fun h => h0 ((isFirst_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The frame run: every weakly fair execution of the program terminates without a fault; every array of the pipeline
    ends at what the library computes from the proof data, and every other buffer at what the host lines after the
    region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Step.lean ====
/-
  What one grid point does to the two result blocks, as pure functions of the point's input blocks.

  A result block holds 8192 running minima. At a point with row tile `i 1` and column tile `i 2` the body lowers
  the 1024 entries of the first block that belong to the row tile to the minimum of what they hold and the least
  entry of the matching row of the point's tile of squared distances (`low1`), and likewise the 2048 entries of the
  second block that belong to the column tile, with the least entry of each column (`low2`). Entries outside the
  tile's range are left as they are.
-/
import proofs.«167252_j2542620639339_2_alg».proof.Proof.Gen.KernelIdeal.Skeleton
import Idealize.ShloMosaic.Lib.WritesUnit
import Idealize.ShloMosaic.Lib.Pipeline.FrameBody

noncomputable section

namespace Cert.KernelIdeal.Step

open Cert.KernelIdeal Cert.KernelIdeal.Gen Idealize.ShloMosaic

variable {F : FTy → Type} [FloatOps F]

/-- The first result block after a point: on the point's row tile the minimum of the old entry and the row's least
    squared distance, elsewhere the old entry. -/
def low1 (i : grid0.Coords) (x0 : Vec F S1x1024x3 .f32) (x1 : Vec F S1x3x2048 .f32) (o : Vec F S1x1x8192 .f32) :
    Vec F S1x1x8192 .f32 := fun y =>
  if h : ∀ a, k0_off1 i a ≤ (y a).val ∧ (y a).val < k0_off1 i a + S1x1x1024.size a then
    k0_pay1 (k0_pay6 x0 x1) (View.ld o (Rect.unit (s := S1x1x8192) (k0_off1 i) S1x1x1024.size (Facts₀.k0_off1_inb i)))
      (Rect.unitLocal (s := S1x1x8192) (off := k0_off1 i) (size := S1x1x1024.size) y h)
  else o y

/-- The second result block after a point: on the point's column tile the minimum of the old entry and the column's
    least squared distance, elsewhere the old entry. -/
def low2 (i : grid0.Coords) (x0 : Vec F S1x1024x3 .f32) (x1 : Vec F S1x3x2048 .f32) (o : Vec F S1x1x8192 .f32) :
    Vec F S1x1x8192 .f32 := fun y =>
  if h : ∀ a, k0_off2 i a ≤ (y a).val ∧ (y a).val < k0_off2 i a + S1x1x2048.size a then
    k0_pay2 (k0_pay7 x0 x1) (View.ld o (Rect.unit (s := S1x1x8192) (k0_off2 i) S1x1x2048.size (Facts₀.k0_off2_inb i)))
      (Rect.unitLocal (s := S1x1x8192) (off := k0_off2 i) (size := S1x1x2048.size) y h)
  else o y

end Cert.KernelIdeal.Step

end
-- ==== Proof.StepRead.lean ====
/-
  The stores of one grid point read back.

  A result block's staging buffer, after the body's stores, reads as the pure update of Step.lean: under the newest
  store's range (the point's row tile, resp. column tile) the stored minimum, elsewhere what was there before — the
  previous contents at an ordinary point, the block of +∞ just stored at a batch's first point (that first store covers
  the whole block, so nothing of what the buffer held earlier is left).
-/
import proofs.«167252_j2542620639339_2_alg».proof.Proof.Step
import Idealize.ShloMosaic.Lib.Pipeline.Frame

set_option maxRecDepth 16384

noncomputable section

namespace Cert.KernelIdeal.Step

open Cert.KernelIdeal Cert.KernelIdeal.Gen Idealize.ShloMosaic

variable {F : FTy → Type} [FloatOps F]

theorem zero3 : (![0, 0, 0] : Fin 3 → ℕ) = fun _ => 0 := funext fun a => by fin_cases a <;> rfl

/-- A store through the whole block leaves the stored block, whatever was there. -/
theorem read_reset (a : Memref sig .tc .vmem S1x1x8192 .f32) (f : a.view.ty.Contents (Elt F)) (w : Vec F S1x1x8192 .f32) :
    a.view.read (Elt F) (a.view.writes (Elt F) f
      [⟨Rect.unit (s := S1x1x8192) ![0, 0, 0] S1x1x8192.size Facts₀.inb_S1x1x8192_S1x1x8192_0_0_0, w⟩]) = w := by
  funext y
  exact View.read_writes_cons_unit_of_mem a.view f Facts₀.inb_S1x1x8192_S1x1x8192_0_0_0 w [] y y rfl
    (fun b => by rw [congrFun zero3 b, Nat.zero_add])

/-- An ordinary point, first result block: the one store over the previous contents `o`. -/
theorem read_low1_next (a : Memref sig .tc .vmem S1x1x8192 .f32) (ha : a.IsWhole) (i : grid0.Coords)
    (x0 : Vec F S1x1024x3 .f32) (x1 : Vec F S1x3x2048 .f32) (o : Vec F S1x1x8192 .f32) :
    a.view.read (Elt F) (a.view.writes (Elt F) (ha.unread o)
      [⟨Rect.unit (s := S1x1x8192) (k0_off1 i) S1x1x1024.size (Facts₀.k0_off1_inb i),
        k0_pay1 (k0_pay6 x0 x1) (View.ld o (Rect.unit (s := S1x1x8192) (k0_off1 i) S1x1x1024.size (Facts₀.k0_off1_inb i)))⟩])
      = low1 i x0 x1 o := by
  funext y
  rw [View.read_writes_cons_unit a.view (ha.unread o) (Facts₀.k0_off1_inb i) _ [] y rfl]
  unfold low1
  by_cases h : ∀ b, k0_off1 i b ≤ (y b).val ∧ (y b).val < k0_off1 i b + S1x1x1024.size b
  · rw [dif_pos h, dif_pos h]
  · rw [dif_neg h, dif_neg h, View.writes_nil]; exact congrFun (ha.read_unread o) y

/-- An ordinary point, second result block. -/
theorem read_low2_next (a : Memref sig .tc .vmem S1x1x8192 .f32) (ha : a.IsWhole) (i : grid0.Coords)
    (x0 : Vec F S1x1024x3 .f32) (x1 : Vec F S1x3x2048 .f32) (o : Vec F S1x1x8192 .f32) :
    a.view.read (Elt F) (a.view.writes (Elt F) (ha.unread o)
      [⟨Rect.unit (s := S1x1x8192) (k0_off2 i) S1x1x2048.size (Facts₀.k0_off2_inb i),
        k0_pay2 (k0_pay7 x0 x1) (View.ld o (Rect.unit (s := S1x1x8192) (k0_off2 i) S1x1x2048.size (Facts₀.k0_off2_inb i)))⟩])
      = low2 i x0 x1 o := by
  funext y
  rw [View.read_writes_cons_unit a.view (ha.unread o) (Facts₀.k0_off2_inb i) _ [] y rfl]
  unfold low2
  by_cases h : ∀ b, k0_off2 i b ≤ (y b).val ∧ (y b).val < k0_off2 i b + S1x1x2048.size b
  · rw [dif_pos h, dif_pos h]
  · rw [dif_neg h, dif_neg h, View.writes_nil]; exact congrFun (ha.read_unread o) y

/-- A batch's first point, first result block: the update over the block of +∞ stored just before, which the
    update's own load reads back. -/
theorem read_low1_first (a : Memref sig .tc .vmem S1x1x8192 .f32) (f : a.view.ty.Contents (Elt F)) (i : grid0.Coords)
    (x0 : Vec F S1x1024x3 .f32) (x1 : Vec F S1x3x2048 .f32) :
    a.view.read (Elt F) (a.view.writes (Elt F) f
      [⟨Rect.unit (s := S1x1x8192) (k0_off1 i) S1x1x1024.size (Facts₀.k0_off1_inb i),
        k0_pay1 (k0_pay6 x0 x1) (View.ld (a.view.read (Elt F) (a.view.writes (Elt F) f
            [⟨Rect.unit (s := S1x1x8192) ![0, 0, 0] S1x1x8192.size Facts₀.inb_S1x1x8192_S1x1x8192_0_0_0, k0_pay3⟩]))
          (Rect.unit (s := S1x1x8192) (k0_off1 i) S1x1x1024.size (Facts₀.k0_off1_inb i)))⟩,
       ⟨Rect.unit (s := S1x1x8192) ![0, 0, 0] S1x1x8192.size Facts₀.inb_S1x1x8192_S1x1x8192_0_0_0, k0_pay3⟩])
      = low1 i x0 x1 k0_pay3 := by
  rw [read_reset a f k0_pay3]
  funext y
  rw [View.read_writes_cons_unit a.view f (Facts₀.k0_off1_inb i) _ _ y rfl]
  unfold low1
  by_cases h : ∀ b, k0_off1 i b ≤ (y b).val ∧ (y b).val < k0_off1 i b + S1x1x1024.size b
  · rw [dif_pos h, dif_pos h]
  · rw [dif_neg h, dif_neg h]; exact congrFun (read_reset a f k0_pay3) y

/-- A batch's first point, second result block. -/
theorem read_low2_first (a : Memref sig .tc .vmem S1x1x8192 .f32) (f : a.view.ty.Contents (Elt F)) (i : grid0.Coords)
    (x0 : Vec F S1x1024x3 .f32) (x1 : Vec F S1x3x2048 .f32) :
    a.view.read (Elt F) (a.view.writes (Elt F) f
      [⟨Rect.unit (s := S1x1x8192) (k0_off2 i) S1x1x2048.size (Facts₀.k0_off2_inb i),
        k0_pay2 (k0_pay7 x0 x1) (View.ld (a.view.read (Elt F) (a.view.writes (Elt F) f
            [⟨Rect.unit (s := S1x1x8192) ![0, 0, 0] S1x1x8192.size Facts₀.inb_S1x1x8192_S1x1x8192_0_0_0, k0_pay4⟩]))
          (Rect.unit (s := S1x1x8192) (k0_off2 i) S1x1x2048.size (Facts₀.k0_off2_inb i)))⟩,
       ⟨Rect.unit (s := S1x1x8192) ![0, 0, 0] S1x1x8192.size Facts₀.inb_S1x1x8192_S1x1x8192_0_0_0, k0_pay4⟩])
      = low2 i x0 x1 k0_pay4 := by
  rw [read_reset a f k0_pay4]
  funext y
  rw [View.read_writes_cons_unit a.view f (Facts₀.k0_off2_inb i) _ _ y rfl]
  unfold low2
  by_cases h : ∀ b, k0_off2 i b ≤ (y b).val ∧ (y b).val < k0_off2 i b + S1x1x2048.size b
  · rw [dif_pos h, dif_pos h]
  · rw [dif_neg h, dif_neg h]; exact congrFun (read_reset a f k0_pay4) y

end Cert.KernelIdeal.Step

end
-- ==== Proof.BodyRuns.lean ====
/-
  The kernel body, run once for each of its two control cases, on any whole staging buffers.

  At the first point of a batch (row tile 0 and column tile 0) the body first fills both result blocks with +∞ and
  then does what it does at every point: it forms the tile of squared distances of its 1024 rows against its 2048
  columns, takes the least entry of each row and of each column, and lowers the matching 1024 entries of the first
  result block and 2048 entries of the second to the minimum of what they hold and the new value. Each run says:
  started on staging buffers holding the two input blocks and the result blocks' current contents, the body ends with
  the input blocks untouched and each result buffer at the pure update of Step.lean — over the previous contents at an
  ordinary point, over the block of +∞ at a batch's first point, where the previous contents do not matter.
-/
import proofs.«167252_j2542620639339_2_alg».proof.Proof.Gen.KernelIdeal.Frame
import proofs.«167252_j2542620639339_2_alg».proof.Proof.Gen.KernelIdeal.Skeleton
import proofs.«167252_j2542620639339_2_alg».proof.Proof.StepRead
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Step

/-- The body resets the result blocks exactly when the row-tile and column-tile coordinates are both zero. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- Over the grid of 4 × 8 × 4 points in row-major order, those are the points whose number is a multiple of 32. -/
theorem isFirst_iff : ∀ t : Fin cfg0.N, isFirst (grid0.coords t) ↔ t.val % 32 = 0 :=
  (by decide +kernel : ∀ t : Fin grid0.N, isFirst (grid0.coords t) ↔ t.val % 32 = 0)

/-- The current staging buffer of each window at point `t`, and that it is a whole buffer. -/
abbrev sb0 (t : Fin cfg0.N) : Memref sig .tc .vmem S1x1024x3 .f32 := win0_0.stage (cfg0.slots t 0)
abbrev hsb0 (t : Fin cfg0.N) : (sb0 t).IsWhole := hstage0_0 ((cfg0.slots t 0).cast nbuf0_0)
abbrev sb1 (t : Fin cfg0.N) : Memref sig .tc .vmem S1x3x2048 .f32 := win0_1.stage (cfg0.slots t 1)
abbrev hsb1 (t : Fin cfg0.N) : (sb1 t).IsWhole := hstage0_1 ((cfg0.slots t 1).cast nbuf0_1)
abbrev sb2 (t : Fin cfg0.N) : Memref sig .tc .vmem S1x1x8192 .f32 := win0_2.stage (cfg0.slots t 2)
abbrev hsb2 (t : Fin cfg0.N) : (sb2 t).IsWhole := hstage0_2 ((cfg0.slots t 2).cast nbuf0_2)
abbrev sb3 (t : Fin cfg0.N) : Memref sig .tc .vmem S1x1x8192 .f32 := win0_3.stage (cfg0.slots t 3)
abbrev hsb3 (t : Fin cfg0.N) : (sb3 t).IsWhole := hstage0_3 ((cfg0.slots t 3).cast nbuf0_3)

set_option maxHeartbeats 1000000 in
/-- The run at a batch's first point: the result buffers may hold anything. -/
theorem runFirst (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x8192 .f32) (harg5 : arg5.IsWhole) (arg6 : Memref sig .tc .vmem S1x1x8192 .f32) (harg6 : arg6.IsWhole) (hc : isFirst i)
    (x0 : Vec F S1x1024x3 .f32) (x1 : Vec F S1x3x2048 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ owns (c : Thread nD τ) arg5 fullShare (low1 i x0 x1 k0_pay3)
                ∗ owns (c : Thread nD τ) arg6 fullShare (low2 i x0 x1 k0_pay4)) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1

    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      simp only [View.readAt_eq_ld, harg3.read_unread, harg4.read_unread, View.ld_unit_zero (S := S1x1024x3) zero3, View.ld_unit_zero (S := S1x3x2048) zero3]
      exact read_low1_first arg5 _ i x0 x1
    iexists _; isplitr; swap; · iexact H3
    ipureintro
    sl_unfold_run_names
    simp only [View.readAt_eq_ld, harg3.read_unread, harg4.read_unread, View.ld_unit_zero (S := S1x1024x3) zero3, View.ld_unit_zero (S := S1x3x2048) zero3]
    exact read_low2_first arg6 _ i x0 x1

set_option maxHeartbeats 1000000 in
/-- The run at an ordinary point: the result buffers hold `o1`, `o2`. -/
theorem runNext (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x8192 .f32) (harg5 : arg5.IsWhole) (arg6 : Memref sig .tc .vmem S1x1x8192 .f32) (harg6 : arg6.IsWhole) (hc : ¬isFirst i)
    (x0 : Vec F S1x1024x3 .f32) (x1 : Vec F S1x3x2048 .f32) (o1 o2 : Vec F S1x1x8192 .f32) :
      ∀ (E : Set ℕ) (K : PUnit → sProp 𝕄),
        iprop(owns (c : Thread nD τ) arg3 fullShare x0 ∗ owns (c : Thread nD τ) arg4 fullShare x1 ∗ owns (c : Thread nD τ) arg5 fullShare o1 ∗ owns (c : Thread nD τ) arg6 fullShare o2
            ∗ (iprop(owns (c : Thread nD τ) arg3 fullShare x0 ∗ owns (c : Thread nD τ) arg4 fullShare x1
                ∗ owns (c : Thread nD τ) arg5 fullShare (low1 i x0 x1 o1)
                ∗ owns (c : Thread nD τ) arg6 fullShare (low2 i x0 x1 o2)) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      simp only [View.readAt_eq_ld, harg3.read_unread, harg4.read_unread, harg5.read_unread, View.ld_unit_zero (S := S1x1024x3) zero3, View.ld_unit_zero (S := S1x3x2048) zero3]
      exact read_low1_next arg5 harg5 i x0 x1 o1
    iexists _; isplitr; swap; · iexact H3
    ipureintro
    sl_unfold_run_names
    simp only [View.readAt_eq_ld, harg3.read_unread, harg4.read_unread, harg6.read_unread, View.ld_unit_zero (S := S1x1024x3) zero3, View.ld_unit_zero (S := S1x3x2048) zero3]
    exact read_low2_next arg6 harg6 i x0 x1 o2

end Cert.KernelIdeal.Body

end
-- ==== Proof.Body.lean ====
/-
  The proof data of the one pipelined region and its frame run.

  The two input windows hold, at every grid point, the blocks of the two argument arrays the point's index maps select.
  The two result windows are accumulators: each is written back once per batch, after the batch's 32nd point, and
  between write-backs its staging buffer keeps what the previous point left. What the buffers hold after point `n`
  is therefore a recursion on `n` (`outs`): at the first point of a batch the blocks are reset to +∞ and updated,
  at any other point the previous contents are updated. The body meets this description at every point
  (`sound_body`), so the library's frame run applies: every weakly fair execution terminates without a fault, the
  argument arrays unchanged, each result array at what the write-backs put there, and the host lines after the region
  computed from those.
-/
import proofs.«167252_j2542620639339_2_alg».proof.Proof.BodyRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Step

variable (m : (ℓ : Loc nD τ sig) → Buf (Elt F) ℓ) (ρ : Dev nD → PrngReg)

/-- What the two result blocks' staging buffers hold after the body at point `n`: reset and updated at the first point
    of a batch, the previous point's contents updated otherwise. -/
def outs (c : Dev nD) : (n : ℕ) → n < cfg0.N → Vec F S1x1x8192 .f32 × Vec F S1x1x8192 .f32
  | 0, h => (low1 (grid0.coords ⟨0, h⟩) (iblk m c 0 ⟨0, h⟩) (iblk m c 1 ⟨0, h⟩) k0_pay3,
      low2 (grid0.coords ⟨0, h⟩) (iblk m c 0 ⟨0, h⟩) (iblk m c 1 ⟨0, h⟩) k0_pay4)
  | n + 1, h =>
    if (n + 1) % 32 = 0 then
      (low1 (grid0.coords ⟨n + 1, h⟩) (iblk m c 0 ⟨n + 1, h⟩) (iblk m c 1 ⟨n + 1, h⟩) k0_pay3,
        low2 (grid0.coords ⟨n + 1, h⟩) (iblk m c 0 ⟨n + 1, h⟩) (iblk m c 1 ⟨n + 1, h⟩) k0_pay4)
    else
      (low1 (grid0.coords ⟨n + 1, h⟩) (iblk m c 0 ⟨n + 1, h⟩) (iblk m c 1 ⟨n + 1, h⟩) (outs c n (Nat.lt_of_succ_lt h)).1,
        low2 (grid0.coords ⟨n + 1, h⟩) (iblk m c 0 ⟨n + 1, h⟩) (iblk m c 1 ⟨n + 1, h⟩) (outs c n (Nat.lt_of_succ_lt h)).2)

/-- At the first point of a batch. -/
theorem outs_first (c : Dev nD) (t : Fin cfg0.N) (h0 : t.val % 32 = 0) :
    outs m c t.val t.isLt = (low1 (grid0.coords t) (iblk m c 0 t) (iblk m c 1 t) k0_pay3,
      low2 (grid0.coords t) (iblk m c 0 t) (iblk m c 1 t) k0_pay4) := by
  obtain ⟨n, hn⟩ := t
  cases n with
  | zero => exact rfl
  | succ n => exact (if_pos h0).trans rfl

/-- At any other point. -/
theorem outs_next (c : Dev nD) (t : Fin cfg0.N) (h0 : ¬t.val % 32 = 0) :
    outs m c t.val t.isLt = (low1 (grid0.coords t) (iblk m c 0 t) (iblk m c 1 t) (outs m c (t.val - 1) (Nat.lt_of_le_of_lt (Nat.sub_le _ _) t.isLt)).1,
      low2 (grid0.coords t) (iblk m c 0 t) (iblk m c 1 t) (outs m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-- The proof data on core `c`: the arrays as the region finds them; after each point the inputs' buffers at their
    blocks and the result buffers at `outs`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outs m c t.val t.isLt).1 := by dsimp only [dats]
theorem after3 (c : Dev nD) (t : Fin cfg0.N) : (dats m 0 c).after 3 t = (outs m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Away from the first point of a batch a result buffer holds what the point before left: it was not written back
    in between (write-backs follow the last point of a batch only). -/
theorem before2_next (c : Dev nD) (t : Fin cfg0.N) (h0 : ¬t.val % 32 = 0) (d) :
    (dats m 0 c).before 2 t d = (outs m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_next (c : Dev nD) (t : Fin cfg0.N) (h0 : ¬t.val % 32 = 0) (d) :
    (dats m 0 c).before 3 t d = (outs m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-- At the first point of a batch a result buffer is fresh (the grid's first point, or right after a write-back):
    it holds anything. -/
theorem before2_first (c : Dev nD) (t : Fin cfg0.N) (h0 : t.val % 32 = 0) (d) : (dats m 0 c).before 2 t d = d := by
  have hN : t.val < 128 := lt_of_lt_of_eq t.isLt (show cfg0.N = 128 from N_0)
  refine Dat.before_out_reset _ 2 rfl t ?_ d
  by_cases ht : t.val = 0
  · exact .inl ht
  · exact .inr ⟨ht, (flush0_2 _).mpr (by dsimp only; omega)⟩
theorem before3_first (c : Dev nD) (t : Fin cfg0.N) (h0 : t.val % 32 = 0) (d) : (dats m 0 c).before 3 t d = d := by
  have hN : t.val < 128 := lt_of_lt_of_eq t.isLt (show cfg0.N = 128 from N_0)
  refine Dat.before_out_reset _ 3 rfl t ?_ d
  by_cases ht : t.val = 0
  · exact .inl ht
  · exact .inr ⟨ht, (flush0_3 _).mpr (by dsimp only; omega)⟩

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (sb0 t) fullShare ((dats m 0 c).before 0 t d))
    ∗ (∃ d, owns (c : Thread nD τ) (sb1 t) fullShare ((dats m 0 c).before 1 t d))
    ∗ (∃ d, owns (c : Thread nD τ) (sb2 t) fullShare ((dats m 0 c).before 2 t d))
    ∗ (∃ d, owns (c : Thread nD τ) (sb3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (sb0 t) fullShare ((dats m 0 c).after 0 t)
    ∗ owns (c : Thread nD τ) (sb1 t) fullShare ((dats m 0 c).after 1 t)
    ∗ owns (c : Thread nD τ) (sb2 t) fullShare ((dats m 0 c).after 2 t)
    ∗ owns (c : Thread nD τ) (sb3 t) fullShare ((dats m 0 c).after 3 t))

set_option maxHeartbeats 800000 in
/-- The body at any point: the inputs' buffers hold their blocks; the point's number says which of the two cases it
    is in; a result buffer holds anything at a batch's first point and what the point before left otherwise; the
    matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 32 = 0
  · rw [outs_first m c t h0]
    simp only [before2_first m c t h0, before3_first m c t h0]
    iintro ⟨HΦ, Ho, ⟨%d0, H0⟩, ⟨%d1, H1⟩, ⟨%d2, H2⟩, ⟨%d3, H3⟩⟩
    iapply ((runFirst c (grid0.coords t) _ _ _ _ _ _ _ _ ((isFirst_iff t).mpr h0) (iblk m c 0 t) (iblk m c 1 t)) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs_next m c t h0]
    simp only [before2_next m c t h0, before3_next m c t h0]
    iintro ⟨HΦ, Ho, ⟨%d0, H0⟩, ⟨%d1, H1⟩, ⟨%d2, H2⟩, ⟨%d3, H3⟩⟩
    iapply ((runNext c (grid0.coords t) _ _ _ _ _ _ _ _ (fun h => h0 ((isFirst_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The frame run: every weakly fair execution of the program terminates without a fault; every array of the pipeline
    ends at what the library computes from the proof data, and every other buffer at what the host lines after the
    region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The specification both programs meet, over the extended reals.

  For two clouds of points of ℝ³, `a0` and `a1` (four batches of 8192 points each), the squared distance
  of point `r` of the first to point `n` of the second is  |u|² + |v|² − 2·⟨u, v⟩  (`sqd`);  `D1` is, for each point
  of the first cloud, the least such distance over the second cloud, and `D2` the same with the roles exchanged.
  Both programs return the mean of `D1` plus the mean of `D2`.  A least element over a finite index set is `Finset.inf`
  in the complete lattice of the extended reals, whose top is +∞: the infimum over the empty set is +∞, the value
  a running minimum starts from.
-/
import Idealize.ShloMosaic.PureOps.Ideal
import Idealize.ShloMosaic.Lib.ValueIdx

noncomputable section

open scoped BigOperators

namespace Cert.Spec

open Idealize.ShloMosaic Idealize.ShloMosaic.ValueIdx

/-- The squared distance of two points of ℝ³ in its expanded form: |u|² + |v|² − 2·⟨u, v⟩. -/
def sqd (u v : Fin 3 → EReal) : EReal :=
  ((∑ d : Fin 3, u d * u d) + (∑ d : Fin 3, v d * v d)) - 2 * ∑ d : Fin 3, u d * v d

/-- For batch `i 0` and point `i 1` of the first cloud: the least squared distance to a point of the second cloud. -/
def D1 (a0 a1 : (⟨3, ![4, 8192, 3]⟩ : Shape).Idx → EReal) : (⟨2, ![4, 8192]⟩ : Shape).Idx → EReal :=
  fun i => Finset.univ.inf fun n : Fin 8192 => sqd (fun d => a0 (ix3 (i 0) (i 1) d)) (fun d => a1 (ix3 (i 0) n d))

/-- For batch `i 0` and point `i 1` of the second cloud: the least squared distance to a point of the first cloud. -/
def D2 (a0 a1 : (⟨3, ![4, 8192, 3]⟩ : Shape).Idx → EReal) : (⟨2, ![4, 8192]⟩ : Shape).Idx → EReal :=
  fun i => Finset.univ.inf fun r : Fin 8192 => sqd (fun d => a0 (ix3 (i 0) r d)) (fun d => a1 (ix3 (i 0) (i 1) d))

end Cert.Spec

end
-- ==== Proof.KDefs.lean ====
/-
  What the idealized kernel's two result arrays end holding: the statements' vocabulary.

  Each of the two result arrays has one block per batch, written back once, after the batch's last grid point; what is
  written back is the running minimum as the batch's 32 points left it, which is the least squared distance over the
  whole opposite cloud (the chains of running minima, proved apart). So the first array ends holding, for each point
  of the first cloud, its least squared distance to the second cloud, and the second array the same with the clouds
  exchanged; the host lines after the region average each array and add the two means.
-/
import proofs.«167252_j2542620639339_2_alg».proof.Proof.Body
import proofs.«167252_j2542620639339_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.Body Cert.KernelIdeal.Step
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two argument arrays on core `c`. -/
abbrev A0 (c : Dev nD) : FVec Ideal S4x8192x3 .f32 := m ((c : Thread nD τ).loc main_arg0)
abbrev A1 (c : Dev nD) : FVec Ideal S4x8192x3 .f32 := m ((c : Thread nD τ).loc main_arg1)

/-- What the first result array ends holding: at (b, 0, r) the least squared distance of point r of batch b of the first
    cloud to the second cloud. -/
abbrev G1 (c : Dev nD) : Buf (Elt Ideal) ((c : Thread nD τ).loc main_v1_0) :=
  fun i => Cert.Spec.D1 (A0 m c) (A1 m c) (ix2 (i 0) (i 2))
/-- The second, with the clouds exchanged. -/
abbrev G2 (c : Dev nD) : Buf (Elt Ideal) ((c : Thread nD τ).loc main_v1_1) :=
  fun i => Cert.Spec.D2 (A0 m c) (A1 m c) (ix2 (i 0) (i 2))

/-- The result windows' index maps over the grid: block (batch, 0, 0). -/
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, _)

/-- The recursion's value does not depend on how the point's number is spelt. -/
theorem outs_congr (c : Dev nD) {n n' : ℕ} (e : n = n') (h : n < cfg0.N) (h' : n' < cfg0.N) : outs m c n h = outs m c n' h' := by
  subst e; rfl

end Cert.KernelIdeal.KValue

end
-- ==== Proof.KTail.lean ====
/-
  The host lines after the region: each result array f32[4,1,8192] is reshaped to f32[4,8192], summed over both axes and
  divided by 32768, and the two means are added. Given what the two result arrays hold at the region's exit, this is
  the mean of the first cloud's least squared distances plus the mean of the second cloud's.
-/
import proofs.«167252_j2542620639339_2_alg».proof.Proof.KDefs
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Body Cert.KernelIdeal.Step
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- An `[a, 1, b]` array cast to `[a, b]` reads, at `(p, q)`, the operand at `(p, 0, q)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- The program's result: the mean of the first cloud's least squared distances plus the mean of the second's. -/
def kres (c : Dev nD) : Buf (Elt Ideal) ((c : Thread nD τ).loc main_v8) :=
  addf (Host.divf (F := Ideal) (Host.reduceAdd (F := Ideal) (Cert.Spec.D1 (A0 m c) (A1 m c)) (constant (F := Ideal) S_ .f32 0x00000000#32) reducesTo_S4x8192_S_d0_1 h_S_) (constant (F := Ideal) S_ .f32 0x47000000#32))
    (Host.divf (F := Ideal) (Host.reduceAdd (F := Ideal) (Cert.Spec.D2 (A0 m c) (A1 m c)) (constant (F := Ideal) S_ .f32 0x00000000#32) reducesTo_S4x8192_S_d0_1 h_S_) (constant (F := Ideal) S_ .f32 0x47000000#32))

/-- The reshaped first result array is the first cloud's least squared distances, and likewise the second. -/
theorem reshape_G1 (c : Dev nD) : (fun i => shapeCast S4x8192 (G1 m c) shapeCasts_S4x1x8192_S4x8192 i) = Cert.Spec.D1 (A0 m c) (A1 m c) := by
  funext i
  obtain ⟨b, r, rfl⟩ : ∃ (b : Fin 4) (r : Fin 8192), i = ix2 b r := ⟨i 0, i 1, eq_ix2 i⟩
  exact shapeCast_a1b_ab_apply _ _ b r
theorem reshape_G2 (c : Dev nD) : (fun i => shapeCast S4x8192 (G2 m c) shapeCasts_S4x1x8192_S4x8192 i) = Cert.Spec.D2 (A0 m c) (A1 m c) := by
  funext i
  obtain ⟨b, r, rfl⟩ : ∃ (b : Fin 4) (r : Fin 8192), i = ix2 b r := ⟨i 0, i 1, eq_ix2 i⟩
  exact shapeCast_a1b_ab_apply _ _ b r

/-- The host lines after the region, from result arrays holding `G1`, `G2`, compute `kres`. -/
theorem tail_eq (c : Dev nD) (h2 : (dats m 0 c).arrAt 2 cfg0.N = G1 m c) (h3 : (dats m 0 c).arrAt 3 cfg0.N = G2 m c) :
    Pipeline.afterTail₀ cfgs (dats m) 0 (V0 m) [hostOps1] c main_v8 = kres m c := by
  unfold Pipeline.afterTail₀
  show StableHlo.after hostOps1 _ (Proc.devRef .tc main_v8) = _
  after_results
  rw [Pipeline.withArrays_arr spec0 launch0.win.arr_inj c _ _ 2, Pipeline.withArrays_arr spec0 launch0.win.arr_inj c _ _ 3]
  rw [show (dats m 0 c).arrAt 2 (cfgs 0).N = G1 m c from h2, show (dats m 0 c).arrAt 3 (cfgs 0).N = G2 m c from h3]
  show addf (Host.divf (F := Ideal) (Host.reduceAdd (F := Ideal) (fun i => shapeCast S4x8192 (G1 m c) shapeCasts_S4x1x8192_S4x8192 i) (constant (F := Ideal) S_ .f32 0x00000000#32) reducesTo_S4x8192_S_d0_1 h_S_) (constant (F := Ideal) S_ .f32 0x47000000#32))
    (Host.divf (F := Ideal) (Host.reduceAdd (F := Ideal) (fun i => shapeCast S4x8192 (G2 m c) shapeCasts_S4x1x8192_S4x8192 i) (constant (F := Ideal) S_ .f32 0x00000000#32) reducesTo_S4x8192_S_d0_1 h_S_) (constant (F := Ideal) S_ .f32 0x47000000#32)) = _
  rw [reshape_G1, reshape_G2]
  rfl

end Cert.KernelIdeal.KValue

end
-- ==== Proof.LibMinReduce.lean ====
/-
  General lemmas for minimum reductions and unit-axis reshapes read at the extended reals.

  • The words of +∞, 1 and −2 as extended reals.
  • A shape cast between a vector and a form of it with unit axes added, or between [a, g·l] and [a, g, l], read at an
    index: the operand at the index with the same row-major position.
  • A fold of the minimum from ⊤ over a finite set is the infimum over the set; hence a minimum reduction of a vector over
    ONE axis, started from the word of +∞, read at an index of the result, is the infimum of the source over that axis's
    coordinates (`multiReduction_minimumf_single`) — the form in which a running or staged minimum is compared with a
    `Finset.inf` of a specification.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lib.MinReduce

open Idealize.ShloMosaic Idealize.ShloMosaic.ValueIdx

/-! ## The float literals of the body, as extended reals -/

/-- The pattern of `+∞` denotes the top of the extended reals. -/
theorem ofBits_inf : Ideal.ofBits .f32 0x7F800000#32 = (⊤ : EReal) := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `-2.0` denotes `-2`. -/
theorem ofBits_neg_two : Ideal.ofBits .f32 0xC0000000#32 = ((-2 : ℝ) : EReal) := by
  simp [Ideal.ofBits, Ideal.ieee, -EReal.coe_mul]; norm_num

/-! ## Shape casts between a vector and its unit-axis forms, read at an index -/

section Casts
variable {α : Type}

/-- A `[1, 1, n]` array cast to `[n]` reads, at `p`, the operand at `(0, 0, p)`. -/
theorem shapeCast_11a_a_apply {n : ℕ} (x : (⟨3, ![1, 1, n]⟩ : Shape).Idx → α)
    (h : (⟨3, ![1, 1, n]⟩ : Shape).ShapeCasts ⟨1, ![n]⟩) (p : Fin n) :
    shapeCast ⟨1, ![n]⟩ x h (ix1 p) = x (ix3 (0 : Fin 1) (0 : Fin 1) p) :=
  shapeCast_apply x h _ _ (by
    rw [Shape.rowMajor_val_three, Shape.rowMajor_val_one]
    show (0 * 1 + 0) * n + p.val = p.val
    omega)

/-- An `[n]` array cast to `[1, 1, n]` reads, at `(u, v, p)`, the operand at `p`. -/
theorem shapeCast_a_11a_apply {n : ℕ} (x : (⟨1, ![n]⟩ : Shape).Idx → α)
    (h : (⟨1, ![n]⟩ : Shape).ShapeCasts ⟨3, ![1, 1, n]⟩) (u v : Fin 1) (p : Fin n) :
    shapeCast ⟨3, ![1, 1, n]⟩ x h (ix3 u v p) = x (ix1 p) :=
  shapeCast_apply x h _ _ (by
    have hu : u.val = 0 := by omega
    have hv : v.val = 0 := by omega
    rw [Shape.rowMajor_val_three, Shape.rowMajor_val_one]
    show p.val = (u.val * 1 + v.val) * n + p.val
    rw [hu, hv]; omega)

/-- An `[a]` array cast to the column `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- An `[a, g·l]` array cast to `[a, g, l]` reads, at `(p, i, j)`, the operand at `(p, i·l + j)`. -/
theorem shapeCast_ab_agl_apply {a b g l : ℕ} (x : (⟨2, ![a, b]⟩ : Shape).Idx → α)
    (h : (⟨2, ![a, b]⟩ : Shape).ShapeCasts ⟨3, ![a, g, l]⟩) (hb : b = g * l) (p : Fin a) (i : Fin g) (j : Fin l)
    (q : Fin b) (hq : q.val = i.val * l + j.val) :
    shapeCast ⟨3, ![a, g, l]⟩ x h (ix3 p i j) = x (ix2 p q) :=
  shapeCast_apply x h _ _ (by
    rw [Shape.rowMajor_val_three, Shape.rowMajor_val_two]
    show p.val * b + q.val = (p.val * g + i.val) * l + j.val
    rw [hq, hb, Nat.add_mul, Nat.mul_assoc, Nat.add_assoc])

end Casts

/-! ## A minimum reduction over one axis, as an infimum over that axis's coordinates -/

/-- A fold of the minimum from `⊤` over a finite set is the infimum over it. -/
theorem fold_minimumf_eq_inf {φ : FTy} {ι : Type} [DecidableEq ι] (s : Finset ι) (f : ι → EReal) :
    s.fold (FloatOps.minimumf (F := Ideal) (φ := φ)) (⊤ : EReal) f = s.inf f := by
  induction s using Finset.induction_on with
  | empty => rfl
  | insert a s ha ih =>
    rw [Finset.fold_insert ha, Finset.inf_insert, ih]
    rfl

/-- A `vector.multi_reduction <minimumf>` over ONE axis whose accumulator denotes `⊤`, read at the extended reals:
    the infimum of the source over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (htop : Ideal.ofBits φ acc = (⊤ : EReal)) (j : t.Idx) :
    multiReduction .minimumf [a] t src acc h hφ hacc j
      = (Finset.univ : Finset (Fin (s.size a))).inf fun k => src (h.lift j k) := by
  rw [multiReduction_minimumf_eq_fold]
  refine (h.fold_filter_drop_single _ _ src j).trans ?_
  show (Finset.univ : Finset (Fin (s.size a))).fold FloatOps.minimumf (Ideal.ofBits φ acc) (src ∘ h.lift j) = _
  rw [htop]
  exact fold_minimumf_eq_inf _ _

end Cert.Lib.MinReduce

end
-- ==== Proof.TileValue.lean ====
/-
  One tile of the kernel, as pure functions of the two blocks it loads.

  The body's stored values are read at an index, at the extended reals: the running minima that a grid point
  writes back are the minimum of the stored value and the tile's row (column) minimum; the tile's entry at (p, q)
  is the squared distance |u|² + |v|² − 2·⟨u, v⟩ of point p of the first block to point q of the second, which the
  body obtains as ONE matrix product of two augmented matrices
      [ x | |x|² | 1 | 0 0 0 ]  ·  [ −2·y ; 1 ; |y|² ; 0 0 0 ]
  over eight columns; the row minimum is taken in two stages (sixteen groups of 128 lanes, then the lanes), the
  column minimum in one.
-/
import proofs.«167252_j2542620639339_2_alg».proof.Proof.Gen.KernelIdeal.Skeleton
import proofs.«167252_j2542620639339_2_alg».proof.Proof.Spec
import proofs.«167252_j2542620639339_2_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Lib.MinReduce

/-! ## The running minima and their initial value -/

/-- What a grid point writes back into the first running minimum: the stored value against the tile's row minimum. -/
theorem pay1_apply (v26 : FVec Ideal S1024 .f32) (v33 : Vec Ideal S1x1x1024 .f32) (p : Fin 1024) :
    k0_pay1 (F := Ideal) v26 v33 (ix3 (0 : Fin 1) (0 : Fin 1) p) = min (v33 (ix3 (0 : Fin 1) (0 : Fin 1) p)) (v26 (ix1 p)) := by
  unfold k0_pay1
  refine (shapeCast_a_11a_apply _ _ _ _ p).trans ?_
  rw [minimumf_apply]
  exact congrArg (min · _) (shapeCast_11a_a_apply v33 _ p)

/-- What a grid point writes back into the second running minimum: the stored value against the tile's column minimum. -/
theorem pay2_apply (v27 : FVec Ideal S2048 .f32) (v41 : Vec Ideal S1x1x2048 .f32) (q : Fin 2048) :
    k0_pay2 (F := Ideal) v27 v41 (ix3 (0 : Fin 1) (0 : Fin 1) q) = min (v41 (ix3 (0 : Fin 1) (0 : Fin 1) q)) (v27 (ix1 q)) := by
  unfold k0_pay2
  refine (shapeCast_a_11a_apply _ _ _ _ q).trans ?_
  rw [minimumf_apply]
  exact congrArg (min · _) (shapeCast_11a_a_apply v41 _ q)

/-- The first running minimum starts from `+∞` everywhere. -/
theorem pay3_apply (y : S1x1x8192.Idx) : k0_pay3 (F := Ideal) y = (⊤ : EReal) := by
  unfold k0_pay3
  exact ofBits_inf

/-- So does the second. -/
theorem pay4_apply (y : S1x1x8192.Idx) : k0_pay4 (F := Ideal) y = (⊤ : EReal) := by
  unfold k0_pay4
  exact ofBits_inf

/-- The column minimum of the tile: one minimum reduction over the rows. -/
theorem pay7_apply (v5 : Vec Ideal S1x1024x3 .f32) (v7 : Vec Ideal S1x3x2048 .f32) (q : Fin 2048) :
    k0_pay7 (F := Ideal) v5 v7 (ix1 q) = Finset.univ.inf fun p : Fin 1024 => k0_pay5 (F := Ideal) v5 v7 (ix2 p q) := by
  unfold k0_pay7
  generalize k0_pay5 (F := Ideal) v5 v7 = T
  refine (multiReduction_minimumf_single T _ reduces_S1024x2048_S2048 _ _ ofBits_inf (ix1 q)).trans ?_
  show (Finset.univ.inf fun p : Fin 1024 => T (reduces_S1024x2048_S2048.lift (ix1 q) p)) = _
  refine congrArg (Finset.univ.inf) (funext fun p => congrArg T ?_)
  funext c
  match c with
  | ⟨0, _⟩ => exact Fin.ext rfl
  | ⟨1, _⟩ => exact Fin.ext rfl

/-- The row minimum of the tile, taken in two stages: over the sixteen groups of 128 lanes, then over the lanes.
    Column `q` of the tile is lane `q % 128` of group `q / 128`, so the two-stage infimum is the infimum over the columns. -/
theorem pay6_apply (v5 : Vec Ideal S1x1024x3 .f32) (v7 : Vec Ideal S1x3x2048 .f32) (p : Fin 1024) :
    k0_pay6 (F := Ideal) v5 v7 (ix1 p) = Finset.univ.inf fun q : Fin 2048 => k0_pay5 (F := Ideal) v5 v7 (ix2 p q) := by
  unfold k0_pay6
  generalize k0_pay5 (F := Ideal) v5 v7 = T
  -- the outer reduction: over the lanes
  refine (multiReduction_minimumf_single _ _ reduces_S1024x128_S1024 _ _ ofBits_inf (ix1 p)).trans ?_
  show (Finset.univ.inf fun l : Fin 128 =>
      multiReduction .minimumf [1] S1024x128 (shapeCast S1024x16x128 T shapeCasts_S1024x2048_S1024x16x128) 0x7F800000#32
        reduces_S1024x16x128_S1024x128 (.inl rfl) rfl (reduces_S1024x128_S1024.lift (ix1 p) l)) = _
  have hlane : ∀ l : Fin 128, reduces_S1024x128_S1024.lift (ix1 p) l = ix2 p l := fun l => by
    funext c
    match c with
    | ⟨0, _⟩ => exact Fin.ext rfl
    | ⟨1, _⟩ => exact Fin.ext rfl
  -- the inner reduction: over the groups
  have hinner : ∀ l : Fin 128,
      multiReduction .minimumf [1] S1024x128 (shapeCast S1024x16x128 T shapeCasts_S1024x2048_S1024x16x128) 0x7F800000#32
        reduces_S1024x16x128_S1024x128 (.inl rfl) rfl (ix2 p l)
        = Finset.univ.inf fun g : Fin 16 => T (ix2 p ⟨g.val * 128 + l.val, by have := g.isLt; have := l.isLt; omega⟩) := fun l => by
    refine (multiReduction_minimumf_single _ _ reduces_S1024x16x128_S1024x128 _ _ ofBits_inf (ix2 p l)).trans ?_
    show (Finset.univ.inf fun g : Fin 16 =>
      shapeCast S1024x16x128 T shapeCasts_S1024x2048_S1024x16x128 (reduces_S1024x16x128_S1024x128.lift (ix2 p l) g)) = _
    refine congrArg (Finset.univ.inf) (funext fun g => ?_)
    have hg : reduces_S1024x16x128_S1024x128.lift (ix2 p l) g = ix3 p g l := by
      funext c
      match c with
      | ⟨0, _⟩ => exact Fin.ext rfl
      | ⟨1, _⟩ => exact Fin.ext rfl
      | ⟨2, _⟩ => exact Fin.ext rfl
    rw [hg]
    exact shapeCast_ab_agl_apply T _ rfl p g l _ rfl
  simp only [hlane, hinner]
  -- the two-stage infimum is the infimum over the columns
  refine le_antisymm (Finset.le_inf fun q _ => ?_) (Finset.le_inf fun l _ => Finset.le_inf fun g _ => ?_)
  · have hq := q.isLt
    refine (Finset.inf_le (Finset.mem_univ (⟨q.val % 128, Nat.mod_lt _ (by decide)⟩ : Fin 128))).trans ?_
    refine (Finset.inf_le (Finset.mem_univ (⟨q.val / 128, by omega⟩ : Fin 16))).trans (le_of_eq ?_)
    refine congrArg T (congrArg (ix2 p) (Fin.ext ?_))
    show q.val / 128 * 128 + q.val % 128 = q.val
    omega
  · exact Finset.inf_le (Finset.mem_univ _)

/-! ## The tile's entries: one matrix product of two augmented matrices -/

/-- The first block as a matrix of 1024 points by 3 coordinates. -/
def rows (v5 : Vec Ideal S1x1024x3 .f32) : FVec Ideal S1024x3 .f32 :=
  shapeCast S1024x3 v5 shapeCasts_S1x1024x3_S1024x3

/-- The squared norms of its points, as a column. -/
def rowSq (v5 : Vec Ideal S1x1024x3 .f32) : FVec Ideal S1024x1 .f32 :=
  shapeCast S1024x1
    (multiReduction .add [1] S1024 (mulf (rows v5) (rows v5)) 0x00000000#32 reduces_S1024x3_S1024 (.inl rfl) rfl)
    shapeCasts_S1024_S1024x1

/-- The second block as a matrix of 3 coordinates by 2048 points. -/
def cols (v7 : Vec Ideal S1x3x2048 .f32) : FVec Ideal S3x2048 .f32 :=
  shapeCast S3x2048 v7 shapeCasts_S1x3x2048_S3x2048

/-- The squared norms of its points, as a row. -/
def colSq (v7 : Vec Ideal S1x3x2048 .f32) : FVec Ideal S1x2048 .f32 :=
  shapeCast S1x2048
    (multiReduction .add [0] S2048 (mulf (cols v7) (cols v7)) 0x00000000#32 reduces_S3x2048_S2048 (.inl rfl) rfl)
    shapeCasts_S2048_S1x2048

/-- The left factor, eight columns wide: the coordinates, the squared norm, a one, three zeros. -/
def lhsAug (v5 : Vec Ideal S1x1024x3 .f32) : FVec Ideal S1024x8 .f32 :=
  concatenate S1024x8 1
    [⟨S1024x3, rows v5⟩, ⟨S1024x1, rowSq v5⟩,
     ⟨S1024x1, broadcast S1024x1 (Scalar.ofBits (F := Ideal) .f32 0x3F800000#32)⟩,
     ⟨S1024x3, broadcast S1024x3 (Scalar.ofBits (F := Ideal) .f32 0x00000000#32)⟩]
    concatenates_S1024x3_S1024x1_S1024x1_S1024x3_S1024x8_d1

/-- The right factor, eight rows high: minus twice the coordinates, a one, the squared norm, three zeros. -/
def rhsAug (v7 : Vec Ideal S1x3x2048 .f32) : FVec Ideal S8x2048 .f32 :=
  concatenate S8x2048 0
    [⟨S3x2048, mulf (broadcast S3x2048 (Scalar.ofBits (F := Ideal) .f32 0xC0000000#32)) (cols v7)⟩,
     ⟨S1x2048, broadcast S1x2048 (Scalar.ofBits (F := Ideal) .f32 0x3F800000#32)⟩,
     ⟨S1x2048, colSq v7⟩,
     ⟨S3x2048, broadcast S3x2048 (Scalar.ofBits (F := Ideal) .f32 0x00000000#32)⟩]
    concatenates_S3x2048_S1x2048_S1x2048_S3x2048_S8x2048_d0

/-- The tile is the product of the two factors, accumulated into zero. -/
theorem pay5_eq (v5 : Vec Ideal S1x1024x3 .f32) (v7 : Vec Ideal S1x3x2048 .f32) :
    k0_pay5 (F := Ideal) v5 v7
      = matmul dot_S1024x8_S8x2048_S1024x2048_1_0_0_1_n_n (some .fp32) (lhsAug v5) (rhsAug v7)
          (constant (F := Ideal) S1024x2048 .f32 0x00000000#32) := rfl

theorem rows_apply (v5 : Vec Ideal S1x1024x3 .f32) (p : Fin 1024) (d : Fin 3) :
    rows v5 (ix2 p d) = v5 (ix3 (0 : Fin 1) p d) :=
  shapeCast_1ab_ab_apply v5 _ p d

theorem cols_apply (v7 : Vec Ideal S1x3x2048 .f32) (d : Fin 3) (q : Fin 2048) :
    cols v7 (ix2 d q) = v7 (ix3 (0 : Fin 1) d q) :=
  shapeCast_1ab_ab_apply v7 _ d q

/-- The squared norm of point `p` of the first block: a sum over the lanes of the squares. -/
theorem rowSq_apply (v5 : Vec Ideal S1x1024x3 .f32) (p : Fin 1024) (u : Fin 1) :
    rowSq v5 (ix2 p u) = ∑ d : Fin 3, v5 (ix3 (0 : Fin 1) p d) * v5 (ix3 (0 : Fin 1) p d) := by
  unfold rowSq
  refine (shapeCast_a_a1_apply _ _ p u).trans ?_
  refine (Ideal.multiReduction_add_single _ _ reduces_S1024x3_S1024 _ _ (ix1 p)).trans ?_
  show (∑ d : Fin 3, mulf (rows v5) (rows v5) (reduces_S1024x3_S1024.lift (ix1 p) d)) = _
  refine Finset.sum_congr rfl fun d _ => ?_
  have hd : reduces_S1024x3_S1024.lift (ix1 p) d = ix2 p d := by
    funext c
    match c with
    | ⟨0, _⟩ => exact Fin.ext rfl
    | ⟨1, _⟩ => exact Fin.ext rfl
  rw [hd, mulf_apply, rows_apply]

/-- The squared norm of point `q` of the second block: a sum over the sublanes of the squares. -/
theorem colSq_apply (v7 : Vec Ideal S1x3x2048 .f32) (u : Fin 1) (q : Fin 2048) :
    colSq v7 (ix2 u q) = ∑ d : Fin 3, v7 (ix3 (0 : Fin 1) d q) * v7 (ix3 (0 : Fin 1) d q) := by
  unfold colSq
  refine (shapeCast_a_1a_apply _ _ u q).trans ?_
  refine (Ideal.multiReduction_add_single _ _ reduces_S3x2048_S2048 _ _ (ix1 q)).trans ?_
  show (∑ d : Fin 3, mulf (cols v7) (cols v7) (reduces_S3x2048_S2048.lift (ix1 q) d)) = _
  refine Finset.sum_congr rfl fun d _ => ?_
  have hd : reduces_S3x2048_S2048.lift (ix1 q) d = ix2 d q := by
    funext c
    match c with
    | ⟨0, _⟩ => exact Fin.ext rfl
    | ⟨1, _⟩ => exact Fin.ext rfl
  rw [hd, mulf_apply, cols_apply]

/-! ### The left factor's columns -/

theorem lhsAug_coord (v5 : Vec Ideal S1x1024x3 .f32) (p : Fin 1024) (d : Fin 3) (c : Fin 8) (hc : c.val = d.val) :
    lhsAug v5 (ix2 p c) = v5 (ix3 (0 : Fin 1) p d) := by
  unfold lhsAug
  refine (concatenate_apply_piece _ _ _ (ix2 p c) 0 (by show (0 : ℕ) < 4; omega) S1024x3 (rows v5) rfl rfl 0 rfl (ix2 p d)
    (fun b hb => ?_) ?_).trans (rows_apply v5 p d)
  · match b with
    | ⟨0, _⟩ => rfl
    | ⟨1, _⟩ => exact absurd (Fin.ext rfl) hb
  · show 0 + d.val = c.val
    omega

theorem lhsAug_sq (v5 : Vec Ideal S1x1024x3 .f32) (p : Fin 1024) (c : Fin 8) (hc : c.val = 3) :
    lhsAug v5 (ix2 p c) = ∑ d : Fin 3, v5 (ix3 (0 : Fin 1) p d) * v5 (ix3 (0 : Fin 1) p d) := by
  unfold lhsAug
  refine (concatenate_apply_piece _ _ _ (ix2 p c) 1 (by show (1 : ℕ) < 4; omega) S1024x1 (rowSq v5) rfl rfl 3 rfl (ix2 p (0 : Fin 1))
    (fun b hb => ?_) ?_).trans (rowSq_apply v5 p 0)
  · match b with
    | ⟨0, _⟩ => rfl
    | ⟨1, _⟩ => exact absurd (Fin.ext rfl) hb
  · show 3 + 0 = c.val
    omega

theorem lhsAug_one (v5 : Vec Ideal S1x1024x3 .f32) (p : Fin 1024) (c : Fin 8) (hc : c.val = 4) :
    lhsAug v5 (ix2 p c) = Ideal.ofBits .f32 0x3F800000#32 := by
  unfold lhsAug
  refine concatenate_apply_piece _ _ _ (ix2 p c) 2 (by show (2 : ℕ) < 4; omega) S1024x1
    (broadcast S1024x1 (Scalar.ofBits (F := Ideal) .f32 0x3F800000#32)) rfl rfl 4 rfl (ix2 p (0 : Fin 1))
    (fun b hb => ?_) ?_
  · match b with
    | ⟨0, _⟩ => rfl
    | ⟨1, _⟩ => exact absurd (Fin.ext rfl) hb
  · show 4 + 0 = c.val
    omega

theorem lhsAug_zero (v5 : Vec Ideal S1x1024x3 .f32) (p : Fin 1024) (c : Fin 8) (hc : 5 ≤ c.val) :
    lhsAug v5 (ix2 p c) = Ideal.ofBits .f32 0x00000000#32 := by
  unfold lhsAug
  refine concatenate_apply_piece _ _ _ (ix2 p c) 3 (by show (3 : ℕ) < 4; omega) S1024x3
    (broadcast S1024x3 (Scalar.ofBits (F := Ideal) .f32 0x00000000#32)) rfl rfl 5 rfl
    (ix2 p (⟨c.val - 5, by have := c.isLt; omega⟩ : Fin 3)) (fun b hb => ?_) ?_
  · match b with
    | ⟨0, _⟩ => rfl
    | ⟨1, _⟩ => exact absurd (Fin.ext rfl) hb
  · show 5 + (c.val - 5) = c.val
    omega

/-! ### The right factor's rows -/

theorem rhsAug_coord (v7 : Vec Ideal S1x3x2048 .f32) (q : Fin 2048) (d : Fin 3) (c : Fin 8) (hc : c.val = d.val) :
    rhsAug v7 (ix2 c q) = Ideal.ofBits .f32 0xC0000000#32 * v7 (ix3 (0 : Fin 1) d q) := by
  unfold rhsAug
  refine (concatenate_apply_piece _ _ _ (ix2 c q) 0 (by show (0 : ℕ) < 4; omega) S3x2048
    (mulf (broadcast S3x2048 (Scalar.ofBits (F := Ideal) .f32 0xC0000000#32)) (cols v7)) rfl rfl 0 rfl (ix2 d q)
    (fun b hb => ?_) ?_).trans ?_
  · match b with
    | ⟨0, _⟩ => exact absurd (Fin.ext rfl) hb
    | ⟨1, _⟩ => rfl
  · show 0 + d.val = c.val
    omega
  · rw [mulf_apply, cols_apply]
    rfl

theorem rhsAug_one (v7 : Vec Ideal S1x3x2048 .f32) (q : Fin 2048) (c : Fin 8) (hc : c.val = 3) :
    rhsAug v7 (ix2 c q) = Ideal.ofBits .f32 0x3F800000#32 := by
  unfold rhsAug
  refine concatenate_apply_piece _ _ _ (ix2 c q) 1 (by show (1 : ℕ) < 4; omega) S1x2048
    (broadcast S1x2048 (Scalar.ofBits (F := Ideal) .f32 0x3F800000#32)) rfl rfl 3 rfl (ix2 (0 : Fin 1) q)
    (fun b hb => ?_) ?_
  · match b with
    | ⟨0, _⟩ => exact absurd (Fin.ext rfl) hb
    | ⟨1, _⟩ => rfl
  · show 3 + 0 = c.val
    omega

theorem rhsAug_sq (v7 : Vec Ideal S1x3x2048 .f32) (q : Fin 2048) (c : Fin 8) (hc : c.val = 4) :
    rhsAug v7 (ix2 c q) = ∑ d : Fin 3, v7 (ix3 (0 : Fin 1) d q) * v7 (ix3 (0 : Fin 1) d q) := by
  unfold rhsAug
  refine (concatenate_apply_piece _ _ _ (ix2 c q) 2 (by show (2 : ℕ) < 4; omega) S1x2048 (colSq v7) rfl rfl 4 rfl (ix2 (0 : Fin 1) q)
    (fun b hb => ?_) ?_).trans (colSq_apply v7 0 q)
  · match b with
    | ⟨0, _⟩ => exact absurd (Fin.ext rfl) hb
    | ⟨1, _⟩ => rfl
  · show 4 + 0 = c.val
    omega

theorem rhsAug_zero (v7 : Vec Ideal S1x3x2048 .f32) (q : Fin 2048) (c : Fin 8) (hc : 5 ≤ c.val) :
    rhsAug v7 (ix2 c q) = Ideal.ofBits .f32 0x00000000#32 := by
  unfold rhsAug
  refine concatenate_apply_piece _ _ _ (ix2 c q) 3 (by show (3 : ℕ) < 4; omega) S3x2048
    (broadcast S3x2048 (Scalar.ofBits (F := Ideal) .f32 0x00000000#32)) rfl rfl 5 rfl
    (ix2 (⟨c.val - 5, by have := c.isLt; omega⟩ : Fin 3) q) (fun b hb => ?_) ?_
  · match b with
    | ⟨0, _⟩ => exact absurd (Fin.ext rfl) hb
    | ⟨1, _⟩ => rfl
  · show 5 + (c.val - 5) = c.val
    omega

/-! ### The product's operand indices -/

theorem lhsIdx_axis0 (j : S1024x2048.Idx) (kk : dot_S1024x8_S8x2048_S1024x2048_1_0_0_1_n_n.contr.Idx) :
    (dot_S1024x8_S8x2048_S1024x2048_1_0_0_1_n_n.lhsIdx j kk 0).val = (j 0).val := by
  unfold DotDims.lhsIdx
  rw [dif_neg (show ¬(0 : Fin S1024x8.rank) ∈ dot_S1024x8_S8x2048_S1024x2048_1_0_0_1_n_n.lhsBatch by decide),
    dif_pos (show (0 : Fin S1024x8.rank) ∈ dot_S1024x8_S8x2048_S1024x2048_1_0_0_1_n_n.lhsNonContracting by decide)]
  rfl

theorem lhsIdx_axis1 (j : S1024x2048.Idx) (kk : dot_S1024x8_S8x2048_S1024x2048_1_0_0_1_n_n.contr.Idx) :
    (dot_S1024x8_S8x2048_S1024x2048_1_0_0_1_n_n.lhsIdx j kk 1).val = (kk ⟨0, by decide⟩).val :=
  dot_S1024x8_S8x2048_S1024x2048_1_0_0_1_n_n.lhsIdx_val_of_single rfl j kk

theorem rhsIdx_axis0 (j : S1024x2048.Idx) (kk : dot_S1024x8_S8x2048_S1024x2048_1_0_0_1_n_n.contr.Idx) :
    (dot_S1024x8_S8x2048_S1024x2048_1_0_0_1_n_n.rhsIdx j kk 0).val = (kk ⟨0, by decide⟩).val :=
  dot_S1024x8_S8x2048_S1024x2048_1_0_0_1_n_n.rhsIdx_val_of_single rfl j kk

theorem rhsIdx_axis1 (j : S1024x2048.Idx) (kk : dot_S1024x8_S8x2048_S1024x2048_1_0_0_1_n_n.contr.Idx) :
    (dot_S1024x8_S8x2048_S1024x2048_1_0_0_1_n_n.rhsIdx j kk 1).val = (j 1).val := by
  unfold DotDims.rhsIdx
  rw [dif_neg (show ¬(1 : Fin S8x2048.rank) ∈ dot_S1024x8_S8x2048_S1024x2048_1_0_0_1_n_n.rhsBatch by decide),
    dif_pos (show (1 : Fin S8x2048.rank) ∈ dot_S1024x8_S8x2048_S1024x2048_1_0_0_1_n_n.rhsNonContracting by decide)]
  rfl

/-- The tile's entry at `(p, q)` is the sum over the eight columns of the left factor's row `p` against the right
    factor's column `q`. -/
theorem pay5_sum (v5 : Vec Ideal S1x1024x3 .f32) (v7 : Vec Ideal S1x3x2048 .f32) (p : Fin 1024) (q : Fin 2048) :
    k0_pay5 (F := Ideal) v5 v7 (ix2 p q) = ∑ k : Fin 8, lhsAug v5 (ix2 p k) * rhsAug v7 (ix2 k q) := by
  rw [pay5_eq]
  refine (Ideal.matmul_constant_zero_apply dot_S1024x8_S8x2048_S1024x2048_1_0_0_1_n_n (some .fp32) (lhsAug v5) (rhsAug v7)
    (ix2 p q)).trans ?_
  rw [← Equiv.sum_comp (contrEquiv1 dot_S1024x8_S8x2048_S1024x2048_1_0_0_1_n_n 8 rfl rfl).symm]
  refine Finset.sum_congr rfl fun k _ => ?_
  have hk := contrEquiv1_symm_val dot_S1024x8_S8x2048_S1024x2048_1_0_0_1_n_n 8 rfl rfl k
  have el : dot_S1024x8_S8x2048_S1024x2048_1_0_0_1_n_n.lhsIdx (ix2 p q)
      ((contrEquiv1 dot_S1024x8_S8x2048_S1024x2048_1_0_0_1_n_n 8 rfl rfl).symm k) = ix2 p k :=
    funext fun a => Fin.ext (by
      match a with
      | ⟨0, _⟩ => exact lhsIdx_axis0 _ _
      | ⟨1, _⟩ => exact (lhsIdx_axis1 _ _).trans hk)
  have er : dot_S1024x8_S8x2048_S1024x2048_1_0_0_1_n_n.rhsIdx (ix2 p q)
      ((contrEquiv1 dot_S1024x8_S8x2048_S1024x2048_1_0_0_1_n_n 8 rfl rfl).symm k) = ix2 k q :=
    funext fun a => Fin.ext (by
      match a with
      | ⟨0, _⟩ => exact (rhsIdx_axis0 _ _).trans hk
      | ⟨1, _⟩ => exact rhsIdx_axis1 _ _)
  rw [el, er]

/-! ### The algebra: the eight products add up to the squared distance -/

/-- For points with real coordinates the row `(u, |u|², 1, 0, 0, 0)` against the column `(−2·v, 1, |v|², 0, 0, 0)` is
    `|u|² + |v|² − 2·⟨u, v⟩`. The coordinates must be real: the identity moves a factor across a sum. -/
theorem eight_terms_eq_sqd (u v : Fin 3 → EReal) (hu : ∀ d, ∃ x : ℝ, u d = (x : EReal)) (hv : ∀ d, ∃ x : ℝ, v d = (x : EReal)) :
    u 0 * (((-2 : ℝ) : EReal) * v 0) + u 1 * (((-2 : ℝ) : EReal) * v 1) + u 2 * (((-2 : ℝ) : EReal) * v 2)
        + (∑ d : Fin 3, u d * u d) * ((1 : ℝ) : EReal) + ((1 : ℝ) : EReal) * (∑ d : Fin 3, v d * v d)
        + (0 : EReal) * 0 + (0 : EReal) * 0 + (0 : EReal) * 0
      = Cert.Spec.sqd u v := by
  choose a ha using hu
  choose b hb using hv
  unfold Cert.Spec.sqd
  have h2 : (2 : EReal) = ((2 : ℝ) : EReal) := by norm_cast
  simp only [Fin.sum_univ_three, ha, hb, h2, mul_zero, add_zero]
  simp only [← EReal.coe_mul, ← EReal.coe_add, ← EReal.coe_sub]
  exact congrArg _ (by ring)

/-- The tile's entry at `(p, q)` is the squared distance of point `p` of the first block to point `q` of the second,
    when every coordinate is real. -/
theorem pay5_apply (v5 : Vec Ideal S1x1024x3 .f32) (v7 : Vec Ideal S1x3x2048 .f32)
    (h5 : ∀ y, ∃ x : ℝ, v5 y = (x : EReal)) (h7 : ∀ y, ∃ x : ℝ, v7 y = (x : EReal)) (p : Fin 1024) (q : Fin 2048) :
    k0_pay5 (F := Ideal) v5 v7 (ix2 p q)
      = Cert.Spec.sqd (fun d => v5 (ix3 (0 : Fin 1) p d)) (fun d => v7 (ix3 (0 : Fin 1) d q)) := by
  rw [pay5_sum, Fin.sum_univ_eight,
    lhsAug_coord v5 p 0 0 rfl, lhsAug_coord v5 p 1 1 rfl, lhsAug_coord v5 p 2 2 rfl, lhsAug_sq v5 p 3 rfl,
    lhsAug_one v5 p 4 rfl, lhsAug_zero v5 p 5 (by decide), lhsAug_zero v5 p 6 (by decide), lhsAug_zero v5 p 7 (by decide),
    rhsAug_coord v7 q 0 0 rfl, rhsAug_coord v7 q 1 1 rfl, rhsAug_coord v7 q 2 2 rfl, rhsAug_one v7 q 3 rfl,
    rhsAug_sq v7 q 4 rfl, rhsAug_zero v7 q 5 (by decide), rhsAug_zero v7 q 6 (by decide), rhsAug_zero v7 q 7 (by decide),
    ofBits_neg_two, ofBits_one, Ideal.ofBits_zero_f32]
  exact eight_terms_eq_sqd (fun d => v5 (ix3 (0 : Fin 1) p d)) (fun d => v7 (ix3 (0 : Fin 1) d q))
    (fun d => h5 _) (fun d => h7 _)

end Cert.KernelIdeal.Tile

end
-- ==== Proof.Chain1.lean ====
/-
  The first result block along the grid: after the last point of a batch, entry r of the block is the least squared
  distance of point r of the first cloud to the points of the second cloud.

  A point with row tile i and column tile j lowers the entries of row tile i to their minimum with the least entry of
  the matching row of the point's tile of squared distances, which is the infimum of the distances to the 2048 points
  of column tile j; the first point of a batch starts from +∞. Along the 32 points of a batch entry r therefore
  becomes the infimum over the points' contributions, and the four points whose row tile holds r contribute the four
  column tiles, which together are all 8192 columns.
-/
import proofs.«167252_j2542620639339_2_alg».proof.Proof.Step
import proofs.«167252_j2542620639339_2_alg».proof.Proof.TileValue
import proofs.«167252_j2542620639339_2_alg».proof.Proof.Spec
import proofs.«167252_j2542620639339_2_alg».proof.Proof.Gen.KernelIdeal.Launch

noncomputable section

open scoped BigOperators

namespace Cert.KernelIdeal.Chain1

open Cert.KernelIdeal Cert.KernelIdeal.Gen Cert.KernelIdeal.Step Cert.KernelIdeal.Tile Idealize.ShloMosaic
  Idealize.ShloMosaic.ValueIdx

/-! ## The grid: 128 points, row tile of point t -/

theorem lt128 (t : Fin cfg0.N) : t.val < 128 := lt_of_lt_of_eq t.isLt N_0

/-- The row tile of point `t`, in row-major order over (batch, row tile, column tile) = (4, 8, 4). -/
theorem coords1 : ∀ t : Fin grid0.N, (grid0.coords t 1).val = t.val % 32 / 4 := by decide +kernel

/-! ## One point's update of the first block, read at an entry -/

/-- The update through a rectangle of 1024 entries starting at `R`: inside it the minimum of the old entry and the
    new value at the entry's position in the rectangle, outside it the old entry. -/
theorem low1_read (off : Fin 3 → ℕ) (R : ℕ) (hoff : off = ![0, 0, R])
    (inb : ∀ a, off a + S1x1x1024.size a ≤ S1x1x8192.size a)
    (w : FVec Ideal S1024 .f32) (o : Vec Ideal S1x1x8192 .f32) (r : Fin 8192) :
    (if h : ∀ a, off a ≤ ((ix3 (0 : Fin 1) (0 : Fin 1) r : S1x1x8192.Idx) a).val
          ∧ ((ix3 (0 : Fin 1) (0 : Fin 1) r : S1x1x8192.Idx) a).val < off a + S1x1x1024.size a then
        k0_pay1 (F := Ideal) w (View.ld o (Rect.unit (s := S1x1x8192) off S1x1x1024.size inb))
          (Rect.unitLocal (s := S1x1x8192) (off := off) (size := S1x1x1024.size) (ix3 (0 : Fin 1) (0 : Fin 1) r) h)
      else o (ix3 (0 : Fin 1) (0 : Fin 1) r))
    = if h : R ≤ r.val ∧ r.val < R + 1024 then
        min (o (ix3 (0 : Fin 1) (0 : Fin 1) r)) (w (ix1 (⟨r.val - R, by omega⟩ : Fin 1024)))
      else o (ix3 (0 : Fin 1) (0 : Fin 1) r) := by
  subst hoff
  by_cases hc : R ≤ r.val ∧ r.val < R + 1024
  · have H : ∀ a : Fin 3, (![0, 0, R] : Fin 3 → ℕ) a ≤ ((ix3 (0 : Fin 1) (0 : Fin 1) r : S1x1x8192.Idx) a).val
          ∧ ((ix3 (0 : Fin 1) (0 : Fin 1) r : S1x1x8192.Idx) a).val < (![0, 0, R] : Fin 3 → ℕ) a + S1x1x1024.size a := by
      intro a
      match a with
      | ⟨0, _⟩ => exact ⟨Nat.le_refl 0, Nat.one_pos⟩
      | ⟨1, _⟩ => exact ⟨Nat.le_refl 0, Nat.one_pos⟩
      | ⟨2, _⟩ => exact ⟨hc.1, hc.2⟩
    rw [dif_pos H, dif_pos hc]
    have hloc : Rect.unitLocal (s := S1x1x8192) (off := ![0, 0, R]) (size := S1x1x1024.size)
        (ix3 (0 : Fin 1) (0 : Fin 1) r) H
        = ix3 (0 : Fin 1) (0 : Fin 1) (⟨r.val - R, by omega⟩ : Fin 1024) := by
      funext a
      match a with
      | ⟨0, _⟩ => exact Fin.ext rfl
      | ⟨1, _⟩ => exact Fin.ext rfl
      | ⟨2, _⟩ => exact Fin.ext rfl
    rw [hloc]
    refine (pay1_apply w _ _).trans ?_
    refine congrArg (min · _) ?_
    show o ((Rect.unit (s := S1x1x8192) ![0, 0, R] S1x1x1024.size inb).idx
      (ix3 (0 : Fin 1) (0 : Fin 1) (⟨r.val - R, by omega⟩ : Fin 1024))) = _
    refine congrArg o ?_
    funext a
    match a with
    | ⟨0, _⟩ => exact Fin.ext rfl
    | ⟨1, _⟩ => exact Fin.ext rfl
    | ⟨2, _⟩ => exact Fin.ext (by show R + 1 * (r.val - R) = r.val; omega)
  · have H : ¬ ∀ a : Fin 3, (![0, 0, R] : Fin 3 → ℕ) a ≤ ((ix3 (0 : Fin 1) (0 : Fin 1) r : S1x1x8192.Idx) a).val
          ∧ ((ix3 (0 : Fin 1) (0 : Fin 1) r : S1x1x8192.Idx) a).val < (![0, 0, R] : Fin 3 → ℕ) a + S1x1x1024.size a :=
      fun H => hc (show R ≤ r.val ∧ r.val < R + 1024 from H (⟨2, Nat.lt_succ_self 2⟩ : Fin 3))
    rw [dif_neg H, dif_neg hc]

/-- What a point with row tile `i 1` leaves at entry `r` of the first block. -/
theorem low1_apply (i : grid0.Coords) (x0 : Vec Ideal S1x1024x3 .f32) (x1 : Vec Ideal S1x3x2048 .f32)
    (o : Vec Ideal S1x1x8192 .f32) (r : Fin 8192) :
    low1 (F := Ideal) i x0 x1 o (ix3 (0 : Fin 1) (0 : Fin 1) r)
      = if h : 1024 * (i 1).val ≤ r.val ∧ r.val < 1024 * (i 1).val + 1024 then
          min (o (ix3 (0 : Fin 1) (0 : Fin 1) r))
            (Finset.univ.inf fun q : Fin 2048 =>
              k0_pay5 (F := Ideal) x0 x1 (ix2 (⟨r.val - 1024 * (i 1).val, by omega⟩ : Fin 1024) q))
        else o (ix3 (0 : Fin 1) (0 : Fin 1) r) := by
  refine (low1_read (k0_off1 i) (1024 * (i 1).val) (k0_off1_eq i) (Facts₀.k0_off1_inb i) (k0_pay6 x0 x1) o r).trans ?_
  by_cases h : 1024 * (i 1).val ≤ r.val ∧ r.val < 1024 * (i 1).val + 1024
  · rw [dif_pos h, dif_pos h, pay6_apply]
  · rw [dif_neg h, dif_neg h]

/-! ## One point's contribution, as an infimum of squared distances -/

section Clouds

variable (a0 a1 : (⟨3, ![4, 8192, 3]⟩ : Shape).Idx → EReal)

/-- The squared distance of point `r` of the first cloud to point `c` of the second, in batch `b`. -/
def dist (b : Fin 4) (r c : Fin 8192) : EReal :=
  Cert.Spec.sqd (fun d => a0 (ix3 b r d)) (fun d => a1 (ix3 b c d))

/-- What the `k`-th point of a batch (row tile `k / 4`, column tile `k % 4`) contributes to entry `r`: the least distance
    to the points of its column tile when `r` lies in its row tile, and nothing (`⊤`) otherwise. -/
def tileInf (b : Fin 4) (r : Fin 8192) (k : ℕ) : EReal :=
  (Finset.univ.filter fun c : Fin 8192 => r.val / 1024 = k / 4 ∧ c.val / 2048 = k % 4).inf (dist a0 a1 b r)

/-- The specification's entry is the infimum of the distances over all points of the second cloud. -/
theorem D1_eq (b : Fin 4) (r : Fin 8192) : Cert.Spec.D1 a0 a1 (ix2 b r) = Finset.univ.inf (dist a0 a1 b r) := rfl

/-- The 32 contributions of a batch's points together are the infimum over all 8192 columns: column `c` is met at
    the point with row tile `r / 1024` and column tile `c / 2048`. -/
theorem inf_tileInf (b : Fin 4) (r : Fin 8192) :
    (Finset.range 32).inf (tileInf a0 a1 b r) = Finset.univ.inf (dist a0 a1 b r) := by
  have hr := r.isLt
  refine le_antisymm (Finset.le_inf fun c _ => ?_) (Finset.le_inf fun k _ => ?_)
  · have hc := c.isLt
    refine (Finset.inf_le (Finset.mem_range.mpr (show r.val / 1024 * 4 + c.val / 2048 < 32 by omega))).trans ?_
    unfold tileInf
    exact Finset.inf_le (Finset.mem_filter.mpr ⟨Finset.mem_univ _, by omega, by omega⟩)
  · unfold tileInf
    exact Finset.le_inf fun c _ => Finset.inf_le (Finset.mem_univ c)

variable (X0 : Fin cfg0.N → Vec Ideal S1x1024x3 .f32) (X1 : Fin cfg0.N → Vec Ideal S1x3x2048 .f32)
  (hX0 : ∀ (t : Fin cfg0.N) (p : Fin 1024) (d : Fin 3), X0 t (ix3 (0 : Fin 1) p d)
    = a0 (ix3 (⟨t.val / 32, by have := lt128 t; omega⟩ : Fin 4)
        (⟨t.val % 32 / 4 * 1024 + p.val, by have := lt128 t; have := p.isLt; omega⟩ : Fin 8192) d))
  (hX1 : ∀ (t : Fin cfg0.N) (d : Fin 3) (q : Fin 2048), X1 t (ix3 (0 : Fin 1) d q)
    = a1 (ix3 (⟨t.val / 32, by have := lt128 t; omega⟩ : Fin 4)
        (⟨t.val % 4 * 2048 + q.val, by have := q.isLt; omega⟩ : Fin 8192) d))
  (hfin0 : ∀ y, ∃ x : ℝ, a0 y = (x : EReal)) (hfin1 : ∀ y, ∃ x : ℝ, a1 y = (x : EReal))

include hX0 hfin0 in
/-- Every entry of a point's first input block is real. -/
theorem fin_X0 (t : Fin cfg0.N) (y : S1x1024x3.Idx) : ∃ x : ℝ, X0 t y = (x : EReal) := by
  have hy : y = ix3 (0 : Fin 1) (⟨(y 1).val, (y 1).isLt⟩ : Fin 1024) (⟨(y 2).val, (y 2).isLt⟩ : Fin 3) := by
    funext a
    match a with
    | ⟨0, _⟩ => exact Fin.ext (by have h : (y 0).val < 1 := (y 0).isLt; show (y 0).val = 0; omega)
    | ⟨1, _⟩ => rfl
    | ⟨2, _⟩ => rfl
  rw [hy, hX0]
  exact hfin0 _

include hX1 hfin1 in
/-- Every entry of a point's second input block is real. -/
theorem fin_X1 (t : Fin cfg0.N) (y : S1x3x2048.Idx) : ∃ x : ℝ, X1 t y = (x : EReal) := by
  have hy : y = ix3 (0 : Fin 1) (⟨(y 1).val, (y 1).isLt⟩ : Fin 3) (⟨(y 2).val, (y 2).isLt⟩ : Fin 2048) := by
    funext a
    match a with
    | ⟨0, _⟩ => exact Fin.ext (by have h : (y 0).val < 1 := (y 0).isLt; show (y 0).val = 0; omega)
    | ⟨1, _⟩ => rfl
    | ⟨2, _⟩ => rfl
  rw [hy, hX1]
  exact hfin1 _

include hX0 hX1 hfin0 hfin1 in
/-- The `k`-th point of batch `b` lowers entry `r` to its minimum with the point's contribution. -/
theorem point_step (b : Fin 4) (k : ℕ) (hk : k ≤ 31) (h : 32 * b.val + k < cfg0.N)
    (o : Vec Ideal S1x1x8192 .f32) (r : Fin 8192) :
    low1 (F := Ideal) (grid0.coords ⟨32 * b.val + k, h⟩) (X0 ⟨32 * b.val + k, h⟩) (X1 ⟨32 * b.val + k, h⟩) o
        (ix3 (0 : Fin 1) (0 : Fin 1) r)
      = min (o (ix3 (0 : Fin 1) (0 : Fin 1) r)) (tileInf a0 a1 b r k) := by
  have hb := b.isLt
  have hr := r.isLt
  have hc1 : (grid0.coords ⟨32 * b.val + k, h⟩ 1).val = k / 4 := by
    rw [coords1]
    show (32 * b.val + k) % 32 / 4 = k / 4
    omega
  rw [low1_apply]
  by_cases hin : 1024 * (grid0.coords ⟨32 * b.val + k, h⟩ 1).val ≤ r.val
      ∧ r.val < 1024 * (grid0.coords ⟨32 * b.val + k, h⟩ 1).val + 1024
  · rw [dif_pos hin]
    refine congrArg (min _) ?_
    -- the tile's entries of the row of `r` are the distances to the points of column tile `k % 4`
    have hpay : ∀ q : Fin 2048,
        k0_pay5 (F := Ideal) (X0 ⟨32 * b.val + k, h⟩) (X1 ⟨32 * b.val + k, h⟩)
          (ix2 (⟨r.val - 1024 * (grid0.coords ⟨32 * b.val + k, h⟩ 1).val, by omega⟩ : Fin 1024) q)
        = dist a0 a1 b r (⟨k % 4 * 2048 + q.val, by have := q.isLt; omega⟩ : Fin 8192) := fun q => by
      rw [pay5_apply _ _ (fin_X0 a0 X0 hX0 hfin0 _) (fin_X1 a1 X1 hX1 hfin1 _)]
      unfold dist
      have e0 : (fun d : Fin 3 => X0 ⟨32 * b.val + k, h⟩ (ix3 (0 : Fin 1)
            (⟨r.val - 1024 * (grid0.coords ⟨32 * b.val + k, h⟩ 1).val, by omega⟩ : Fin 1024) d))
          = fun d => a0 (ix3 b r d) := funext fun d => by
        rw [hX0]
        refine congrArg a0 ?_
        funext c
        match c with
        | ⟨0, _⟩ => exact Fin.ext (by show (32 * b.val + k) / 32 = b.val; omega)
        | ⟨1, _⟩ => exact Fin.ext (by
            show (32 * b.val + k) % 32 / 4 * 1024 + (r.val - 1024 * (grid0.coords ⟨32 * b.val + k, h⟩ 1).val) = r.val
            omega)
        | ⟨2, _⟩ => rfl
      have e1 : (fun d : Fin 3 => X1 ⟨32 * b.val + k, h⟩ (ix3 (0 : Fin 1) d q))
          = fun d => a1 (ix3 b (⟨k % 4 * 2048 + q.val, by have := q.isLt; omega⟩ : Fin 8192) d) := funext fun d => by
        rw [hX1]
        refine congrArg a1 ?_
        funext c
        match c with
        | ⟨0, _⟩ => exact Fin.ext (by show (32 * b.val + k) / 32 = b.val; omega)
        | ⟨1, _⟩ => exact Fin.ext (by show (32 * b.val + k) % 4 * 2048 + q.val = k % 4 * 2048 + q.val; omega)
        | ⟨2, _⟩ => rfl
      rw [e0, e1]
    rw [funext hpay]
    unfold tileInf
    refine le_antisymm (Finset.le_inf fun c hc => ?_) (Finset.le_inf fun q _ => ?_)
    · have hc' := (Finset.mem_filter.mp hc).2
      have hcl := c.isLt
      refine (Finset.inf_le (Finset.mem_univ (⟨c.val % 2048, Nat.mod_lt _ (by decide)⟩ : Fin 2048))).trans (le_of_eq ?_)
      refine congrArg (dist a0 a1 b r) (Fin.ext ?_)
      show k % 4 * 2048 + c.val % 2048 = c.val
      omega
    · have hq := q.isLt
      refine Finset.inf_le (Finset.mem_filter.mpr ⟨Finset.mem_univ _, by omega, ?_⟩)
      show (k % 4 * 2048 + q.val) / 2048 = k % 4
      omega
  · rw [dif_neg hin]
    have hempty : tileInf a0 a1 b r k = ⊤ := by
      unfold tileInf
      rw [Finset.filter_eq_empty_iff.mpr fun c _ hc => hin (by omega)]
      exact Finset.inf_empty
    rw [hempty]
    exact (min_eq_left le_top).symm

include hX0 hX1 hfin0 hfin1 in
/-- After the last point of batch `b` the first result block holds, at entry `r`, the least squared distance of point
    `r` of the first cloud to the second cloud. -/
theorem chain1
    (O : (n : ℕ) → n < cfg0.N → Vec Ideal S1x1x8192 .f32)
    (hO0 : ∀ n (h : n < cfg0.N), n % 32 = 0 →
      O n h = low1 (F := Ideal) (grid0.coords ⟨n, h⟩) (X0 ⟨n, h⟩) (X1 ⟨n, h⟩) (k0_pay3 (F := Ideal)))
    (hOs : ∀ n (h : n < cfg0.N), ¬ n % 32 = 0 →
      O n h = low1 (F := Ideal) (grid0.coords ⟨n, h⟩) (X0 ⟨n, h⟩) (X1 ⟨n, h⟩) (O (n - 1) (by omega)))
    (b : Fin 4) (r : Fin 8192) :
    O (32 * b.val + 31) (lt_of_lt_of_eq (by have := b.isLt; omega : 32 * b.val + 31 < 128) N_0.symm)
        (ix3 (0 : Fin 1) (0 : Fin 1) r)
      = Cert.Spec.D1 a0 a1 (ix2 b r) := by
  have hb := b.isLt
  have hO : ∀ (n m : ℕ) (hn : n < cfg0.N) (hm : m < cfg0.N), n = m → O n hn = O m hm := by
    intro n m hn hm e
    subst e
    rfl
  -- along the batch, entry `r` is the infimum of the contributions of the points so far
  have key : ∀ (k : ℕ) (hk : k ≤ 31) (h : 32 * b.val + k < cfg0.N),
      O (32 * b.val + k) h (ix3 (0 : Fin 1) (0 : Fin 1) r) = (Finset.range (k + 1)).inf (tileInf a0 a1 b r) := by
    intro k
    induction k with
    | zero =>
      intro hk h
      rw [hO0 _ h (by omega), point_step a0 a1 X0 X1 hX0 hX1 hfin0 hfin1 b 0 hk h, pay3_apply,
        min_eq_right le_top]
      simp
    | succ k ih =>
      intro hk h
      have h' : 32 * b.val + k < cfg0.N := by omega
      rw [hOs _ h (by omega), point_step a0 a1 X0 X1 hX0 hX1 hfin0 hfin1 b (k + 1) hk h,
        hO (32 * b.val + (k + 1) - 1) (32 * b.val + k) _ h' (by omega), ih (by omega) h',
        Finset.range_add_one (n := k + 1), Finset.inf_insert]
      exact min_comm _ _
  rw [key 31 le_rfl, inf_tileInf, D1_eq]

end Clouds

end Cert.KernelIdeal.Chain1

end
-- ==== Proof.Final1.lean ====
/-
  The first result array after the run: at (b, 0, r) the least squared distance of point r of batch b of the first
  cloud to the second cloud.

  The array has one block per batch, written back once, after the batch's last grid point; what is written back is the
  block of running minima as the batch's 32 points left it, and the chain of running minima says that this is the least
  squared distance over the whole second cloud. The four blocks tile the array, so the array ends at that function
  everywhere.
-/
import proofs.«167252_j2542620639339_2_alg».proof.Proof.KDefs
import proofs.«167252_j2542620639339_2_alg».proof.Proof.Chain1
import Idealize.ShloMosaic.Lib.Pipeline.Value

noncomputable section

namespace Cert.KernelIdeal.KValue

open Cert.KernelIdeal Cert.KernelIdeal.Gen Cert.KernelIdeal.Body Cert.KernelIdeal.Step
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- WHAT A BATCH'S LAST POINT WRITES BACK into the first result array is the block of least squared distances, when
    the points' input blocks are the blocks of the two argument arrays and every coordinate is real. -/
theorem flushed2_eq (c : Dev nD)
    (hX0 : ∀ (t : Fin cfg0.N) (p : Fin 1024) (d : Fin 3),
      (iblk (F := Ideal) m c 0 t : Vec Ideal S1x1024x3 .f32) (ix3 (0 : Fin 1) p d)
        = A0 m c (ix3 (⟨t.val / 32, by have := Chain1.lt128 t; omega⟩ : Fin 4)
            (⟨t.val % 32 / 4 * 1024 + p.val, by have := Chain1.lt128 t; have := p.isLt; omega⟩ : Fin 8192) d))
    (hX1 : ∀ (t : Fin cfg0.N) (d : Fin 3) (q : Fin 2048),
      (iblk (F := Ideal) m c 1 t : Vec Ideal S1x3x2048 .f32) (ix3 (0 : Fin 1) d q)
        = A1 m c (ix3 (⟨t.val / 32, by have := Chain1.lt128 t; omega⟩ : Fin 4)
            (⟨t.val % 4 * 2048 + q.val, by have := q.isLt; omega⟩ : Fin 8192) d))
    (hfin0 : ∀ y, ∃ x : ℝ, A0 m c y = (x : EReal)) (hfin1 : ∀ y, ∃ x : ℝ, A1 m c y = (x : EReal))
    (t : Fin cfg0.N) (hf : (cfg0.win 2).flush t = true) :
    (dats m 0 c).flushed 2 t = ((cfg0.win 2).blk t).view.read (Elt Ideal) (G1 m c) := by
  have hN := Chain1.lt128 t
  have ht : t.val % 32 = 31 := (flush0_2 t).mp hf
  obtain ⟨e0, e1, e2⟩ := idx2 t
  show (cfg0.win 2).cut (grid0.coords t) ((dats m 0 c).after 2 t) = _
  rw [after2]
  funext j
  have hj0 : (j 0).val < 1 := (j 0).isLt
  have hj1 : (j 1).val < 1 := (j 1).isLt
  have hj2 : (j 2).val < 8192 := (j 2).isLt
  show (outs m c t.val t.isLt).1 j = G1 m c (((cfg0.win 2).blk t).view.emb j)
  -- the block's one row: entry `r`
  have hj : j = ix3 (0 : Fin 1) (0 : Fin 1) (⟨(j 2).val, hj2⟩ : Fin 8192) := by
    funext a
    match a with
    | ⟨0, _⟩ => exact Fin.ext (by show (j 0).val = 0; omega)
    | ⟨1, _⟩ => exact Fin.ext (by show (j 1).val = 0; omega)
    | ⟨2, _⟩ => rfl
  -- the chain of running minima, over the batch of `t`
  have hch := Chain1.chain1 (A0 m c) (A1 m c) (fun t => iblk (F := Ideal) m c 0 t) (fun t => iblk (F := Ideal) m c 1 t)
    hX0 hX1 hfin0 hfin1 (fun n h => (outs m c n h).1)
    (fun n h h0 => congrArg Prod.fst (outs_first m c ⟨n, h⟩ h0))
    (fun n h h0 => congrArg Prod.fst (outs_next m c ⟨n, h⟩ h0))
    (⟨t.val / 32, by omega⟩ : Fin 4) (⟨(j 2).val, hj2⟩ : Fin 8192)
  have et : t.val = 32 * (t.val / 32) + 31 := by omega
  have hout : (outs m c t.val t.isLt).1 (ix3 (0 : Fin 1) (0 : Fin 1) (⟨(j 2).val, hj2⟩ : Fin 8192))
      = Cert.Spec.D1 (A0 m c) (A1 m c) (ix2 (⟨t.val / 32, by omega⟩ : Fin 4) (⟨(j 2).val, hj2⟩ : Fin 8192)) :=
    (congrArg (fun o : Vec Ideal S1x1x8192 .f32 × Vec Ideal S1x1x8192 .f32 =>
      o.1 (ix3 (0 : Fin 1) (0 : Fin 1) (⟨(j 2).val, hj2⟩ : Fin 8192))) (outs_congr m c et t.isLt _)).trans hch
  refine (congrArg (outs m c t.val t.isLt).1 hj).trans (hout.trans ?_)
  -- the block's entry `(0, 0, r)` is the array's entry `(t / 32, 0, r)`
  show Cert.Spec.D1 (A0 m c) (A1 m c) (ix2 (⟨t.val / 32, by omega⟩ : Fin 4) (⟨(j 2).val, hj2⟩ : Fin 8192))
    = Cert.Spec.D1 (A0 m c) (A1 m c) (ix2 ((((cfg0.win 2).blk t).view.emb j) 0) ((((cfg0.win 2).blk t).view.emb j) 2))
  refine congrArg (Cert.Spec.D1 (A0 m c) (A1 m c)) ?_
  funext a
  match a with
  | ⟨0, _⟩ => exact Fin.ext (by show t.val / 32 = win0_2.index t (0 : Fin 3) * 1 + 1 * (j 0).val; omega)
  | ⟨1, _⟩ => exact Fin.ext (by show (j 2).val = win0_2.index t (2 : Fin 3) * 8192 + 1 * (j 2).val; omega)

/-- The four blocks tile the first result array: index `(b, 0, r)` lies in the block written back after the last point
    of batch `b`. -/
theorem cover2 (c : Dev nD) : ∀ i : ((cfg0.win 2).arr.view.loc (c.tc : Thread nD τ)).2.ty.Idx,
    ∃ t : Fin cfg0.N, (cfg0.win 2).flush t = true ∧ i ∈ ((cfg0.win 2).blk t).view.set := by
  intro i
  have h0 : (i 0).val < 4 := (i 0).isLt
  have h1 : (i 1).val < 1 := (i 1).isLt
  have h2 : (i 2).val < 8192 := (i 2).isLt
  have hlt : 32 * (i 0).val + 31 < cfg0.N := lt_of_lt_of_eq (by omega : 32 * (i 0).val + 31 < 128) N_0.symm
  refine ⟨⟨32 * (i 0).val + 31, hlt⟩, (flush0_2 _).mpr (by show (32 * (i 0).val + 31) % 32 = 31; omega), ?_⟩
  obtain ⟨e0, e1, e2⟩ := idx2 ⟨32 * (i 0).val + 31, hlt⟩
  have e0' : win0_2.index ⟨32 * (i 0).val + 31, hlt⟩ (0 : Fin 3) = (i 0).val := by
    rw [e0]; show (32 * (i 0).val + 31) / 32 = (i 0).val; omega
  show i ∈ ((View.whole main_v1_0).slice (win0_2.rect ⟨32 * (i 0).val + 31, hlt⟩)).set
  rw [View.set_slice_whole, Rect.mem_set_unit]
  intro a
  match a with
  | ⟨0, _⟩ =>
    show win0_2.index ⟨32 * (i 0).val + 31, hlt⟩ (0 : Fin 3) * 1 ≤ (i 0).val
      ∧ (i 0).val < win0_2.index ⟨32 * (i 0).val + 31, hlt⟩ (0 : Fin 3) * 1 + 1
    omega
  | ⟨1, _⟩ =>
    show win0_2.index ⟨32 * (i 0).val + 31, hlt⟩ (1 : Fin 3) * 1 ≤ (i 1).val
      ∧ (i 1).val < win0_2.index ⟨32 * (i 0).val + 31, hlt⟩ (1 : Fin 3) * 1 + 1
    omega
  | ⟨2, _⟩ =>
    show win0_2.index ⟨32 * (i 0).val + 31, hlt⟩ (2 : Fin 3) * 8192 ≤ (i 2).val
      ∧ (i 2).val < win0_2.index ⟨32 * (i 0).val + 31, hlt⟩ (2 : Fin 3) * 8192 + 8192
    omega

/-- THE FIRST RESULT ARRAY after the run holds the least squared distances. -/
theorem final2 (c : Dev nD)
    (hX0 : ∀ (t : Fin cfg0.N) (p : Fin 1024) (d : Fin 3),
      (iblk (F := Ideal) m c 0 t : Vec Ideal S1x1024x3 .f32) (ix3 (0 : Fin 1) p d)
        = A0 m c (ix3 (⟨t.val / 32, by have := Chain1.lt128 t; omega⟩ : Fin 4)
            (⟨t.val % 32 / 4 * 1024 + p.val, by have := Chain1.lt128 t; have := p.isLt; omega⟩ : Fin 8192) d))
    (hX1 : ∀ (t : Fin cfg0.N) (d : Fin 3) (q : Fin 2048),
      (iblk (F := Ideal) m c 1 t : Vec Ideal S1x3x2048 .f32) (ix3 (0 : Fin 1) d q)
        = A1 m c (ix3 (⟨t.val / 32, by have := Chain1.lt128 t; omega⟩ : Fin 4)
            (⟨t.val % 4 * 2048 + q.val, by have := q.isLt; omega⟩ : Fin 8192) d))
    (hfin0 : ∀ y, ∃ x : ℝ, A0 m c y = (x : EReal)) (hfin1 : ∀ y, ∃ x : ℝ, A1 m c y = (x : EReal)) :
    (dats m 0 c).arrAt 2 cfg0.N = G1 m c :=
  (dats m 0 c).arrAt_eq_of_cover 2 (G1 m c) (flushed2_eq m c hX0 hX1 hfin0 hfin1) (cover2 c)

end Cert.KernelIdeal.KValue

end
-- ==== Proof.Chain2.lean ====
/-
  The second result block along the grid: after the last point of a batch it holds, for every point of the second
  cloud, the least squared distance to a point of the first cloud.

  The 128 grid points run over (batch, row tile, column tile) in row-major order: point n has batch n / 32, row tile
  n % 32 / 4 and column tile n % 4. The block of 8192 running minima is reset to +∞ at the first point of a batch;
  the point with row tile i and column tile j lowers entry c, for c in the column tile [2048·j, 2048·j + 2048), to the
  minimum of what it holds and the least squared distance from the 1024 points of row tile i to point c. So after
  point (i, j) entry c holds the infimum over the rows r of the tiles before i, and of tile i too once the column tile
  of c has been visited; after the last point every row has been met.
-/
import proofs.«167252_j2542620639339_2_alg».proof.Proof.Step
import proofs.«167252_j2542620639339_2_alg».proof.Proof.TileValue
import proofs.«167252_j2542620639339_2_alg».proof.Proof.Spec
import proofs.«167252_j2542620639339_2_alg».proof.Proof.Gen.KernelIdeal.Launch
import Idealize.ShloMosaic.Lib.ValueIdx

noncomputable section

open scoped BigOperators

namespace Cert.KernelIdeal.Chain2

open Cert.KernelIdeal Cert.KernelIdeal.Gen Cert.KernelIdeal.Step Cert.KernelIdeal.Tile Idealize.ShloMosaic Idealize.ShloMosaic.ValueIdx

/-! ## The grid's coordinates and the column tile's offset -/

/-- Point `t` of the grid is in batch `t / 32`. -/
theorem coords_batch : ∀ t : Fin grid0.N, (grid0.coords t 0).val = t.val / 32 :=
  (by decide +kernel : ∀ t : Fin grid0.N, (grid0.coords t 0).val = t.val / 32)

/-- Its row tile is `t % 32 / 4`. -/
theorem coords_row : ∀ t : Fin grid0.N, (grid0.coords t 1).val = t.val % 32 / 4 :=
  (by decide +kernel : ∀ t : Fin grid0.N, (grid0.coords t 1).val = t.val % 32 / 4)

/-- Its column tile is `t % 4`. -/
theorem coords_col : ∀ t : Fin grid0.N, (grid0.coords t 2).val = t.val % 4 :=
  (by decide +kernel : ∀ t : Fin grid0.N, (grid0.coords t 2).val = t.val % 4)

/-- The column tile `j` starts at entry `2048·j` of the block: the offset word does not wrap. -/
theorem off2_eq : ∀ i : grid0.Coords, k0_off2 i = ![0, 0, (i 2).val * 2048] :=
  (by decide +kernel : ∀ i : grid0.Coords, k0_off2 i = ![0, 0, (i 2).val * 2048])

/-! ## One point's update, read at an entry -/

/-- Inside the column tile the entry is lowered to the minimum of what it holds and the column's least squared distance. -/
theorem low2_of_mem (i : grid0.Coords) (x0 : Vec Ideal S1x1024x3 .f32) (x1 : Vec Ideal S1x3x2048 .f32)
    (o : Vec Ideal S1x1x8192 .f32) (c : Fin 8192) (C : ℕ) (hC : k0_off2 i = ![0, 0, C]) (h1 : C ≤ c.val) (h2 : c.val < C + 2048) :
    low2 (F := Ideal) i x0 x1 o (ix3 (0 : Fin 1) (0 : Fin 1) c)
      = min (o (ix3 (0 : Fin 1) (0 : Fin 1) c))
          (Finset.univ.inf fun p : Fin 1024 => k0_pay5 (F := Ideal) x0 x1 (ix2 p (⟨c.val - C, by omega⟩ : Fin 2048))) := by
  have hcond : ∀ a : Fin S1x1x8192.rank, k0_off2 i a ≤ ((ix3 (0 : Fin 1) (0 : Fin 1) c : S1x1x8192.Idx) a).val
      ∧ ((ix3 (0 : Fin 1) (0 : Fin 1) c : S1x1x8192.Idx) a).val < k0_off2 i a + S1x1x2048.size a := by
    rw [hC]
    intro a
    match a with
    | ⟨0, _⟩ => exact ⟨Nat.le_refl 0, Nat.zero_lt_one⟩
    | ⟨1, _⟩ => exact ⟨Nat.le_refl 0, Nat.zero_lt_one⟩
    | ⟨2, _⟩ => exact ⟨h1, h2⟩
  refine (dif_pos hcond).trans ?_
  have hq : Rect.unitLocal (s := S1x1x8192) (off := k0_off2 i) (size := S1x1x2048.size) (ix3 (0 : Fin 1) (0 : Fin 1) c) hcond
      = (ix3 (0 : Fin 1) (0 : Fin 1) (⟨c.val - C, by omega⟩ : Fin 2048) : S1x1x2048.Idx) := by
    funext a
    apply Fin.ext
    match a with
    | ⟨0, _⟩ => exact Nat.zero_sub _
    | ⟨1, _⟩ => exact Nat.zero_sub _
    | ⟨2, _⟩ => show c.val - k0_off2 i 2 = c.val - C; rw [hC]; rfl
  rw [hq]
  refine (pay2_apply _ _ _).trans (congrArg₂ min (congrArg o ?_) (pay7_apply x0 x1 _))
  funext a
  apply Fin.ext
  match a with
  | ⟨0, _⟩ => show k0_off2 i 0 + 1 * 0 = 0; rw [hC]; rfl
  | ⟨1, _⟩ => show k0_off2 i 1 + 1 * 0 = 0; rw [hC]; rfl
  | ⟨2, _⟩ => show k0_off2 i 2 + 1 * (c.val - C) = c.val; rw [hC]; show C + 1 * (c.val - C) = c.val; omega

/-- Outside the column tile the entry is left as it is. -/
theorem low2_of_not_mem (i : grid0.Coords) (x0 : Vec Ideal S1x1024x3 .f32) (x1 : Vec Ideal S1x3x2048 .f32)
    (o : Vec Ideal S1x1x8192 .f32) (c : Fin 8192) (C : ℕ) (hC : k0_off2 i = ![0, 0, C]) (h : c.val < C ∨ C + 2048 ≤ c.val) :
    low2 (F := Ideal) i x0 x1 o (ix3 (0 : Fin 1) (0 : Fin 1) c) = o (ix3 (0 : Fin 1) (0 : Fin 1) c) := by
  refine dif_neg fun hcond => ?_
  have h2 := hcond 2
  rw [hC] at h2
  have h2' : C ≤ c.val ∧ c.val < C + 2048 := h2
  omega

/-! ## The squared distances a point's tile holds -/

/-- The grid has 128 points. -/
theorem N_eq : cfg0.N = 128 := N_0

/-- The squared distance, in batch `b`, of point `r` of the first cloud to point `c` of the second. -/
def dist (a0 a1 : (⟨3, ![4, 8192, 3]⟩ : Shape).Idx → EReal) (b : Fin 4) (c r : Fin 8192) : EReal :=
  Cert.Spec.sqd (fun d => a0 (ix3 b r d)) (fun d => a1 (ix3 b c d))

/-- An index of a block with one leading unit axis is (0, its second coordinate, its third). -/
theorem idx_1ab {n1 n2 : ℕ} (y : (⟨3, ![1, n1, n2]⟩ : Shape).Idx) :
    y = ix3 (0 : Fin 1) (y 1 : Fin n1) (y 2 : Fin n2) := by
  funext a
  match a with
  | ⟨0, _⟩ => exact Fin.ext (Nat.lt_one_iff.mp (y 0).isLt)
  | ⟨1, _⟩ => rfl
  | ⟨2, _⟩ => rfl

/-- Entry (p, q) of the tile of point `t`: the squared distance of row `1024·i + p` to column `2048·j + q` in the
    point's batch, `i` and `j` its row and column tiles. The blocks' entries are real because the clouds' are. -/
theorem tile_apply (X0 : Fin cfg0.N → Vec Ideal S1x1024x3 .f32) (X1 : Fin cfg0.N → Vec Ideal S1x3x2048 .f32)
    (a0 a1 : (⟨3, ![4, 8192, 3]⟩ : Shape).Idx → EReal)
    (hX0 : ∀ (t : Fin cfg0.N) (p : Fin 1024) (d : Fin 3), X0 t (ix3 (0 : Fin 1) p d)
      = a0 (ix3 (⟨t.val / 32, by have := t.isLt; have := N_eq; omega⟩ : Fin 4)
          (⟨t.val % 32 / 4 * 1024 + p.val, by have := p.isLt; omega⟩ : Fin 8192) d))
    (hX1 : ∀ (t : Fin cfg0.N) (d : Fin 3) (q : Fin 2048), X1 t (ix3 (0 : Fin 1) d q)
      = a1 (ix3 (⟨t.val / 32, by have := t.isLt; have := N_eq; omega⟩ : Fin 4)
          (⟨t.val % 4 * 2048 + q.val, by have := q.isLt; omega⟩ : Fin 8192) d))
    (hfin0 : ∀ y, ∃ x : ℝ, a0 y = (x : EReal)) (hfin1 : ∀ y, ∃ x : ℝ, a1 y = (x : EReal))
    (t : Fin cfg0.N) (p : Fin 1024) (q : Fin 2048) :
    k0_pay5 (F := Ideal) (X0 t) (X1 t) (ix2 p q)
      = dist a0 a1 (⟨t.val / 32, by have := t.isLt; have := N_eq; omega⟩ : Fin 4)
          (⟨t.val % 4 * 2048 + q.val, by have := q.isLt; omega⟩ : Fin 8192)
          (⟨t.val % 32 / 4 * 1024 + p.val, by have := p.isLt; omega⟩ : Fin 8192) := by
  have h5 : ∀ y, ∃ x : ℝ, X0 t y = (x : EReal) := fun y => by
    obtain ⟨x, hx⟩ := hfin0 (ix3 (⟨t.val / 32, by have := t.isLt; have := N_eq; omega⟩ : Fin 4)
      (⟨t.val % 32 / 4 * 1024 + (y 1 : Fin 1024).val, by have h1 : (y 1 : Fin 1024).val < 1024 := (y 1 : Fin 1024).isLt; omega⟩ : Fin 8192) (y 2 : Fin 3))
    exact ⟨x, (congrArg (X0 t) (idx_1ab y)).trans ((hX0 t (y 1) (y 2)).trans hx)⟩
  have h7 : ∀ y, ∃ x : ℝ, X1 t y = (x : EReal) := fun y => by
    obtain ⟨x, hx⟩ := hfin1 (ix3 (⟨t.val / 32, by have := t.isLt; have := N_eq; omega⟩ : Fin 4)
      (⟨t.val % 4 * 2048 + (y 2 : Fin 2048).val, by have h2 : (y 2 : Fin 2048).val < 2048 := (y 2 : Fin 2048).isLt; omega⟩ : Fin 8192) (y 1 : Fin 3))
    exact ⟨x, (congrArg (X1 t) (idx_1ab y)).trans ((hX1 t (y 1) (y 2)).trans hx)⟩
  exact (pay5_apply (X0 t) (X1 t) h5 h7 p q).trans
    (congrArg₂ Cert.Spec.sqd (funext fun d => hX0 t p d) (funext fun d => hX1 t d q))

/-! ## The rows an entry has met -/

/-- Row `r` meets column `c` at point `4·(r / 1024) + c / 2048` of a batch; these are the rows met strictly before point `k`. -/
def met (c : Fin 8192) (k : ℕ) : Finset (Fin 8192) :=
  Finset.univ.filter fun r : Fin 8192 => 4 * (r.val / 1024) + c.val / 2048 < k

theorem mem_met {c : Fin 8192} {k : ℕ} {r : Fin 8192} : r ∈ met c k ↔ 4 * (r.val / 1024) + c.val / 2048 < k := by
  unfold met
  rw [Finset.mem_filter]
  exact ⟨fun h => h.2, fun h => ⟨Finset.mem_univ _, h⟩⟩

/-- One point: if before point `k` of batch `b` the entry holds the least distance over the rows met so far, after it the
    entry holds the least distance over the rows met up to and including point `k`. -/
theorem step (X0 : Fin cfg0.N → Vec Ideal S1x1024x3 .f32) (X1 : Fin cfg0.N → Vec Ideal S1x3x2048 .f32)
    (a0 a1 : (⟨3, ![4, 8192, 3]⟩ : Shape).Idx → EReal)
    (hX0 : ∀ (t : Fin cfg0.N) (p : Fin 1024) (d : Fin 3), X0 t (ix3 (0 : Fin 1) p d)
      = a0 (ix3 (⟨t.val / 32, by have := t.isLt; have := N_eq; omega⟩ : Fin 4)
          (⟨t.val % 32 / 4 * 1024 + p.val, by have := p.isLt; omega⟩ : Fin 8192) d))
    (hX1 : ∀ (t : Fin cfg0.N) (d : Fin 3) (q : Fin 2048), X1 t (ix3 (0 : Fin 1) d q)
      = a1 (ix3 (⟨t.val / 32, by have := t.isLt; have := N_eq; omega⟩ : Fin 4)
          (⟨t.val % 4 * 2048 + q.val, by have := q.isLt; omega⟩ : Fin 8192) d))
    (hfin0 : ∀ y, ∃ x : ℝ, a0 y = (x : EReal)) (hfin1 : ∀ y, ∃ x : ℝ, a1 y = (x : EReal))
    (n : ℕ) (hn : n < cfg0.N) (b : Fin 4) (k : ℕ) (hnk : n = 32 * b.val + k) (hk : k < 32)
    (o : Vec Ideal S1x1x8192 .f32) (c : Fin 8192)
    (ho : o (ix3 (0 : Fin 1) (0 : Fin 1) c) = (met c k).inf (dist a0 a1 b c)) :
    low2 (F := Ideal) (grid0.coords ⟨n, hn⟩) (X0 ⟨n, hn⟩) (X1 ⟨n, hn⟩) o (ix3 (0 : Fin 1) (0 : Fin 1) c)
      = (met c (k + 1)).inf (dist a0 a1 b c) := by
  have hb := b.isLt
  have hcl := c.isLt
  have hC : k0_off2 (grid0.coords ⟨n, hn⟩) = ![0, 0, n % 4 * 2048] :=
    (off2_eq _).trans (congrArg (fun z => (![0, 0, z * 2048] : Fin 3 → ℕ)) (coords_col ⟨n, hn⟩))
  by_cases hc : n % 4 * 2048 ≤ c.val ∧ c.val < n % 4 * 2048 + 2048
  · refine (low2_of_mem _ _ _ _ c _ hC hc.1 hc.2).trans ?_
    have hpay : ∀ p : Fin 1024,
        k0_pay5 (F := Ideal) (X0 ⟨n, hn⟩) (X1 ⟨n, hn⟩) (ix2 p (⟨c.val - n % 4 * 2048, by omega⟩ : Fin 2048))
          = dist a0 a1 b c (⟨n % 32 / 4 * 1024 + p.val, by have := p.isLt; omega⟩ : Fin 8192) := fun p => by
      refine (tile_apply X0 X1 a0 a1 hX0 hX1 hfin0 hfin1 ⟨n, hn⟩ p _).trans ?_
      have eb : (⟨n / 32, by have := N_eq; omega⟩ : Fin 4) = b := Fin.ext (by show n / 32 = b.val; omega)
      have ec : (⟨n % 4 * 2048 + (c.val - n % 4 * 2048), by omega⟩ : Fin 8192) = c :=
        Fin.ext (by show n % 4 * 2048 + (c.val - n % 4 * 2048) = c.val; omega)
      exact congrArg₂ (fun z w => dist a0 a1 z w (⟨n % 32 / 4 * 1024 + p.val, by have := p.isLt; omega⟩ : Fin 8192)) eb ec
    rw [ho, congrArg Finset.univ.inf (funext hpay)]
    refine le_antisymm (Finset.le_inf fun r hr => ?_) (le_min (Finset.inf_mono fun r hr => ?_) (Finset.le_inf fun p _ => Finset.inf_le ?_))
    · have hr1 := mem_met.1 hr
      by_cases hr' : r ∈ met c k
      · exact (min_le_left _ _).trans (Finset.inf_le hr')
      · have hr2 : ¬ 4 * (r.val / 1024) + c.val / 2048 < k := fun h => hr' (mem_met.2 h)
        have hrl := r.isLt
        refine (min_le_right _ _).trans ((Finset.inf_le (Finset.mem_univ (⟨r.val % 1024, Nat.mod_lt _ (by decide)⟩ : Fin 1024))).trans
          (le_of_eq (congrArg (dist a0 a1 b c) (Fin.ext ?_))))
        show n % 32 / 4 * 1024 + r.val % 1024 = r.val
        omega
    · exact mem_met.2 (Nat.lt_succ_of_lt (mem_met.1 hr))
    · have hp := p.isLt
      refine mem_met.2 ?_
      show 4 * ((n % 32 / 4 * 1024 + p.val) / 1024) + c.val / 2048 < k + 1
      omega
  · refine (low2_of_not_mem _ _ _ _ c _ hC (by omega)).trans (ho.trans ?_)
    refine congrArg (fun s : Finset (Fin 8192) => s.inf (dist a0 a1 b c)) ?_
    ext r
    rw [mem_met, mem_met]
    omega

/-! ## Along a batch -/

/-- After point `k` of batch `b` the entry holds the least distance over the rows met up to and including that point. -/
theorem inv (X0 : Fin cfg0.N → Vec Ideal S1x1024x3 .f32) (X1 : Fin cfg0.N → Vec Ideal S1x3x2048 .f32)
    (a0 a1 : (⟨3, ![4, 8192, 3]⟩ : Shape).Idx → EReal)
    (hX0 : ∀ (t : Fin cfg0.N) (p : Fin 1024) (d : Fin 3), X0 t (ix3 (0 : Fin 1) p d)
      = a0 (ix3 (⟨t.val / 32, by have := t.isLt; have := N_eq; omega⟩ : Fin 4)
          (⟨t.val % 32 / 4 * 1024 + p.val, by have := p.isLt; omega⟩ : Fin 8192) d))
    (hX1 : ∀ (t : Fin cfg0.N) (d : Fin 3) (q : Fin 2048), X1 t (ix3 (0 : Fin 1) d q)
      = a1 (ix3 (⟨t.val / 32, by have := t.isLt; have := N_eq; omega⟩ : Fin 4)
          (⟨t.val % 4 * 2048 + q.val, by have := q.isLt; omega⟩ : Fin 8192) d))
    (hfin0 : ∀ y, ∃ x : ℝ, a0 y = (x : EReal)) (hfin1 : ∀ y, ∃ x : ℝ, a1 y = (x : EReal))
    (O : (n : ℕ) → n < cfg0.N → Vec Ideal S1x1x8192 .f32)
    (hO0 : ∀ n (h : n < cfg0.N), n % 32 = 0 →
      O n h = low2 (F := Ideal) (grid0.coords ⟨n, h⟩) (X0 ⟨n, h⟩) (X1 ⟨n, h⟩) (k0_pay4 (F := Ideal)))
    (hOs : ∀ n (h : n < cfg0.N), ¬ n % 32 = 0 →
      O n h = low2 (F := Ideal) (grid0.coords ⟨n, h⟩) (X0 ⟨n, h⟩) (X1 ⟨n, h⟩) (O (n - 1) (by omega)))
    (b : Fin 4) (c : Fin 8192) (k : ℕ) (hk : k < 32) (hn : 32 * b.val + k < cfg0.N) :
    O (32 * b.val + k) hn (ix3 (0 : Fin 1) (0 : Fin 1) c) = (met c (k + 1)).inf (dist a0 a1 b c) := by
  have hO : ∀ n m (h : n < cfg0.N) (h' : m < cfg0.N), n = m → O n h = O m h' := by
    intro n m h h' e
    subst e
    rfl
  induction k with
  | zero =>
    rw [hO0 _ hn (by omega)]
    refine step X0 X1 a0 a1 hX0 hX1 hfin0 hfin1 _ hn b 0 rfl hk _ c ?_
    rw [pay4_apply]
    exact le_antisymm (Finset.le_inf fun r hr => absurd (mem_met.1 hr) (Nat.not_lt_zero _)) le_top
  | succ k ih =>
    have hn' : 32 * b.val + k < cfg0.N := by omega
    rw [hOs _ hn (by omega)]
    refine step X0 X1 a0 a1 hX0 hX1 hfin0 hfin1 _ hn b (k + 1) rfl hk _ c ?_
    rw [hO _ _ _ hn' (by omega)]
    exact ih (by omega) hn'

/-- After the last point of batch `b`, entry `c` of the second result block is `D2` at (b, c): the least squared distance
    from point `c` of the second cloud to a point of the first. -/
theorem chain2 (X0 : Fin cfg0.N → Vec Ideal S1x1024x3 .f32) (X1 : Fin cfg0.N → Vec Ideal S1x3x2048 .f32)
    (a0 a1 : (⟨3, ![4, 8192, 3]⟩ : Shape).Idx → EReal)
    (hX0 : ∀ (t : Fin cfg0.N) (p : Fin 1024) (d : Fin 3), X0 t (ix3 (0 : Fin 1) p d)
      = a0 (ix3 (⟨t.val / 32, by have := t.isLt; have := N_eq; omega⟩ : Fin 4)
          (⟨t.val % 32 / 4 * 1024 + p.val, by have := p.isLt; omega⟩ : Fin 8192) d))
    (hX1 : ∀ (t : Fin cfg0.N) (d : Fin 3) (q : Fin 2048), X1 t (ix3 (0 : Fin 1) d q)
      = a1 (ix3 (⟨t.val / 32, by have := t.isLt; have := N_eq; omega⟩ : Fin 4)
          (⟨t.val % 4 * 2048 + q.val, by have := q.isLt; omega⟩ : Fin 8192) d))
    (hfin0 : ∀ y, ∃ x : ℝ, a0 y = (x : EReal)) (hfin1 : ∀ y, ∃ x : ℝ, a1 y = (x : EReal))
    (O : (n : ℕ) → n < cfg0.N → Vec Ideal S1x1x8192 .f32)
    (hO0 : ∀ n (h : n < cfg0.N), n % 32 = 0 →
      O n h = low2 (F := Ideal) (grid0.coords ⟨n, h⟩) (X0 ⟨n, h⟩) (X1 ⟨n, h⟩) (k0_pay4 (F := Ideal)))
    (hOs : ∀ n (h : n < cfg0.N), ¬ n % 32 = 0 →
      O n h = low2 (F := Ideal) (grid0.coords ⟨n, h⟩) (X0 ⟨n, h⟩) (X1 ⟨n, h⟩) (O (n - 1) (by omega)))
    (b : Fin 4) (c : Fin 8192) :
    O (32 * b.val + 31) (by have := b.isLt; have := N_eq; omega) (ix3 (0 : Fin 1) (0 : Fin 1) c)
      = Cert.Spec.D2 a0 a1 (ix2 b c) := by
  rw [inv X0 X1 a0 a1 hX0 hX1 hfin0 hfin1 O hO0 hOs b c 31 (by decide) _]
  have hall : met c 32 = Finset.univ := by
    ext r
    rw [mem_met]
    have := r.isLt
    have := c.isLt
    exact ⟨fun _ => Finset.mem_univ _, fun _ => by omega⟩
  rw [hall]
  rfl

end Cert.KernelIdeal.Chain2

end
-- ==== Proof.Final2.lean ====
/-
  The second result array after the run: at (b, 0, r) the least squared distance of point r of batch b of the second
  cloud to the first cloud.

  The array has one block per batch, the whole row (b, 0, ·) of 8192 entries, written back once, after the batch's last
  grid point 32·b + 31. What is written back is the block of running minima as the batch's 32 points left it; along the
  batch that block ends at the least squared distance over every point of the first cloud. The four write-backs cover
  the array, so the array ends holding those least distances everywhere.
-/
import proofs.«167252_j2542620639339_2_alg».proof.Proof.KDefs
import proofs.«167252_j2542620639339_2_alg».proof.Proof.Chain2
import Idealize.ShloMosaic.Lib.Pipeline.Value

set_option maxRecDepth 16384

noncomputable section

namespace Cert.KernelIdeal.KValue

open Cert.KernelIdeal Cert.KernelIdeal.Gen Cert.KernelIdeal.Body Cert.KernelIdeal.Step
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- What a batch's last point writes back to the second result array is the batch's row of least squared distances:
    the block of running minima after the point, entry r, is `D2` at (batch, r), and the block sits at row (batch, 0, ·). -/
theorem flushed3_eq (c : Dev nD)
    (hX0 : ∀ (t : Fin cfg0.N) (p : Fin 1024) (d : Fin 3),
      (iblk (F := Ideal) m c 0 t : Vec Ideal S1x1024x3 .f32) (ix3 (0 : Fin 1) p d)
        = A0 m c (ix3 (⟨t.val / 32, by have := t.isLt; have := Chain2.N_eq; omega⟩ : Fin 4)
            (⟨t.val % 32 / 4 * 1024 + p.val, by have := p.isLt; omega⟩ : Fin 8192) d))
    (hX1 : ∀ (t : Fin cfg0.N) (d : Fin 3) (q : Fin 2048),
      (iblk (F := Ideal) m c 1 t : Vec Ideal S1x3x2048 .f32) (ix3 (0 : Fin 1) d q)
        = A1 m c (ix3 (⟨t.val / 32, by have := t.isLt; have := Chain2.N_eq; omega⟩ : Fin 4)
            (⟨t.val % 4 * 2048 + q.val, by have := q.isLt; omega⟩ : Fin 8192) d))
    (hfin0 : ∀ y, ∃ x : ℝ, A0 m c y = (x : EReal)) (hfin1 : ∀ y, ∃ x : ℝ, A1 m c y = (x : EReal))
    (t : Fin cfg0.N) (hf : (cfg0.win 3).flush t = true) :
    (dats m 0 c).flushed 3 t = ((cfg0.win 3).blk t).view.read (Elt Ideal) (G2 m c) := by
  have hN : cfg0.N = 128 := N_0
  have ht := t.isLt
  have h31 : t.val % 32 = 31 := (flush0_3 t).mp hf
  obtain ⟨e0, e1, e2⟩ := idx3 t
  show (cfg0.win 3).cut (grid0.coords t) ((dats m 0 c).after 3 t) = _
  rw [after3]
  funext j
  have hj0 : (j 0).val < 1 := (j 0).isLt
  have hj1 : (j 1).val < 1 := (j 1).isLt
  have hj2 : (j 2).val < 8192 := (j 2).isLt
  have hb : t.val / 32 < 4 := by omega
  have hlast : 32 * (t.val / 32) + 31 = t.val := by omega
  show (outs m c t.val t.isLt).2 ((cfg0.win 3).xinj (grid0.coords t) j) = G2 m c (((cfg0.win 3).blk t).view.emb j)
  have hL : (cfg0.win 3).xinj (grid0.coords t) j
      = (ix3 (0 : Fin 1) (0 : Fin 1) (⟨(j 2).val, hj2⟩ : Fin 8192) : S1x1x8192.Idx) := by
    funext a
    apply Fin.ext
    match a with
    | ⟨0, _⟩ => show (j 0).val = 0; omega
    | ⟨1, _⟩ => show (j 1).val = 0; omega
    | ⟨2, _⟩ => rfl
  have hR : (ix2 ((((cfg0.win 3).blk t).view.emb j) 0) ((((cfg0.win 3).blk t).view.emb j) 2) : (⟨2, ![4, 8192]⟩ : Shape).Idx)
      = ix2 (⟨t.val / 32, hb⟩ : Fin 4) (⟨(j 2).val, hj2⟩ : Fin 8192) := by
    funext a
    apply Fin.ext
    match a with
    | ⟨0, _⟩ => show win0_3.index t (0 : Fin 3) * 1 + 1 * (j 0).val = t.val / 32; rw [e0]; omega
    | ⟨1, _⟩ => show win0_3.index t (2 : Fin 3) * 8192 + 1 * (j 2).val = (j 2).val; rw [e2, Nat.zero_mul, Nat.zero_add, Nat.one_mul]
  have hchain := Chain2.chain2 (fun t => (iblk (F := Ideal) m c 0 t : Vec Ideal S1x1024x3 .f32))
    (fun t => (iblk (F := Ideal) m c 1 t : Vec Ideal S1x3x2048 .f32)) (A0 m c) (A1 m c) hX0 hX1 hfin0 hfin1
    (fun n h => (outs m c n h).2)
    (fun n h h0 => congrArg Prod.snd (outs_first m c ⟨n, h⟩ h0))
    (fun n h h0 => congrArg Prod.snd (outs_next m c ⟨n, h⟩ h0))
    (⟨t.val / 32, hb⟩ : Fin 4) (⟨(j 2).val, hj2⟩ : Fin 8192)
  refine (congrArg (outs m c t.val t.isLt).2 hL).trans ?_
  refine (congrArg (fun o : Vec Ideal S1x1x8192 .f32 × Vec Ideal S1x1x8192 .f32 =>
    o.2 (ix3 (0 : Fin 1) (0 : Fin 1) (⟨(j 2).val, hj2⟩ : Fin 8192))) (outs_congr m c hlast.symm t.isLt (by omega))).trans ?_
  exact hchain.trans (congrArg (Cert.Spec.D2 (A0 m c) (A1 m c)) hR.symm)

include m in
/-- Every entry (b, 0, r) of the second result array lies in the block that the last point of batch b writes back. -/
theorem cover3 (c : Dev nD) : ∀ i : ((cfg0.win 3).arr.view.loc (c.tc : Thread nD τ)).2.ty.Idx,
    ∃ t : Fin cfg0.N, (cfg0.win 3).flush t = true ∧ i ∈ ((cfg0.win 3).blk t).view.set := by
  intro i
  have hN : cfg0.N = 128 := N_0
  have hi0 : (i 0 : Nat) < 4 := (i 0).isLt
  have hi1 : (i 1 : Nat) < 1 := (i 1).isLt
  have hi2 : (i 2 : Nat) < 8192 := (i 2).isLt
  obtain ⟨t, ht⟩ : ∃ t : Fin cfg0.N, t.val = 32 * (i 0 : Nat) + 31 := ⟨⟨32 * (i 0 : Nat) + 31, by omega⟩, rfl⟩
  obtain ⟨e0, e1, e2⟩ := idx3 t
  refine ⟨t, (flush0_3 t).mpr (by omega), ?_⟩
  show i ∈ ((View.whole main_v1_1).slice (win0_3.rect t)).set
  rw [View.set_slice_whole, Rect.mem_set_unit]
  intro a
  match a with
  | ⟨0, _⟩ =>
    show win0_3.index t (0 : Fin 3) * 1 ≤ (i 0 : Nat) ∧ (i 0 : Nat) < win0_3.index t (0 : Fin 3) * 1 + 1
    rw [e0]; omega
  | ⟨1, _⟩ =>
    show win0_3.index t (1 : Fin 3) * 1 ≤ (i 1 : Nat) ∧ (i 1 : Nat) < win0_3.index t (1 : Fin 3) * 1 + 1
    rw [e1]; omega
  | ⟨2, _⟩ =>
    show win0_3.index t (2 : Fin 3) * 8192 ≤ (i 2 : Nat) ∧ (i 2 : Nat) < win0_3.index t (2 : Fin 3) * 8192 + 8192
    rw [e2]; omega

/-- So the second result array ends holding, at every (b, 0, r), the least squared distance of point r of batch b of the
    second cloud to the first cloud. -/
theorem final3 (c : Dev nD)
    (hX0 : ∀ (t : Fin cfg0.N) (p : Fin 1024) (d : Fin 3),
      (iblk (F := Ideal) m c 0 t : Vec Ideal S1x1024x3 .f32) (ix3 (0 : Fin 1) p d)
        = A0 m c (ix3 (⟨t.val / 32, by have := t.isLt; have := Chain2.N_eq; omega⟩ : Fin 4)
            (⟨t.val % 32 / 4 * 1024 + p.val, by have := p.isLt; omega⟩ : Fin 8192) d))
    (hX1 : ∀ (t : Fin cfg0.N) (d : Fin 3) (q : Fin 2048),
      (iblk (F := Ideal) m c 1 t : Vec Ideal S1x3x2048 .f32) (ix3 (0 : Fin 1) d q)
        = A1 m c (ix3 (⟨t.val / 32, by have := t.isLt; have := Chain2.N_eq; omega⟩ : Fin 4)
            (⟨t.val % 4 * 2048 + q.val, by have := q.isLt; omega⟩ : Fin 8192) d))
    (hfin0 : ∀ y, ∃ x : ℝ, A0 m c y = (x : EReal)) (hfin1 : ∀ y, ∃ x : ℝ, A1 m c y = (x : EReal)) :
    (dats m 0 c).arrAt 3 cfg0.N = G2 m c :=
  (dats m 0 c).arrAt_eq_of_cover 3 (G2 m c) (flushed3_eq m c hX0 hX1 hfin0 hfin1) (cover3 m c)

end Cert.KernelIdeal.KValue

end
-- ==== Proof.BlockFacts.lean ====
/-
  Two groups of facts about the kernel at the exact instance.

  The input blocks of a grid point, entry by entry.  The grid's 128 points run in row-major order over
  (batch b < 4, row tile i < 8, column tile j < 4): point t has b = t / 32, i = t % 32 / 4, j = t % 4.  The first
  window's block at t is rows 1024·i … 1024·i + 1023 of batch b of the first cloud; the second window's array is the
  second cloud with its last two axes exchanged (coordinates first, points second), and its block at t is columns
  2048·j … 2048·j + 2047 of batch b of that array, that is points 2048·j … 2048·j + 2047 of batch b of the second cloud.

  Finiteness.  The precondition says that every entry of both clouds is smaller in absolute value than +∞; on the
  extended reals that is: every entry is a real number.
-/
import proofs.«167252_j2542620639339_2_alg».proof.Defs
import proofs.«167252_j2542620639339_2_alg».proof.Proof.Gen.KernelIdeal.Frame
import proofs.«167252_j2542620639339_2_alg».proof.Proof.Gen.Pre_finite_inputs
import Idealize.ShloMosaic.Lib.ValueIdx
import Idealize.ShloMosaic.Lib.ValueLayout
import Idealize.ShloMosaic.Lib.Pipeline.Value
import Idealize.ShloMosaic.Lib.ReduceAll
import Idealize.ShloMosaic.Lib.Tactic

set_option maxRecDepth 16384

noncomputable section

namespace Cert.KernelIdeal.BlockFacts

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD) (t : Fin cfg0.N)

/-- A grid point's number is below 128. -/
theorem t_lt (t : Fin cfg0.N) : t.val < 128 := lt_of_lt_of_eq t.isLt N_0

/-- The two input windows' index maps in closed form, decided once over the grid: point t is at batch t / 32,
    row tile t % 32 / 4, column tile t % 4. -/
theorem idx_facts : ∀ t : Fin cfg0.N,
    win0_0.index t (0 : Fin 3) = t.val / 32 ∧ win0_0.index t (1 : Fin 3) = t.val % 32 / 4 ∧ win0_0.index t (2 : Fin 3) = 0
    ∧ win0_1.index t (0 : Fin 3) = t.val / 32 ∧ win0_1.index t (1 : Fin 3) = 0 ∧ win0_1.index t (2 : Fin 3) = t.val % 4 :=
  (by decide +kernel : ∀ t : Fin grid0.N, _)

/-- The first window's block at point t: entry (0, p, d) is coordinate d of point 1024·(t % 32 / 4) + p of batch t / 32
    of the first cloud. -/
theorem iblk0_apply (p : Fin 1024) (d : Fin 3) :
    (iblk (F := Ideal) m c 0 t : Vec Ideal S1x1024x3 .f32) (ix3 0 p d)
      = (m ((c : Thread nD τ).loc main_arg0) : FVec Ideal S4x8192x3 .f32)
          (ix3 ⟨t.val / 32, by have := t_lt t; omega⟩ ⟨t.val % 32 / 4 * 1024 + p.val, by have := t_lt t; have := p.isLt; omega⟩ d) := by
  obtain ⟨e0, e1, e2, -, -, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * (0 : Fin 1).val = t.val / 32; rw [e0]; simp
  | ⟨1, _⟩ => show win0_0.index t (1 : Fin 3) * 1024 + 1 * p.val = t.val % 32 / 4 * 1024 + p.val; rw [e1]; omega
  | ⟨2, _⟩ => show win0_0.index t (2 : Fin 3) * 3 + 1 * d.val = d.val; rw [e2]; omega

/-- The second window's array when the grid starts: the second cloud with its last two axes exchanged. -/
theorem V_main_v0 : (V m c main_v0 : S4x3x8192.Idx → EReal)
    = transpose S4x3x8192 [0, 2, 1] (m ((c : Thread nD τ).loc main_arg1) : FVec Ideal S4x8192x3 .f32)
        transposes_S4x8192x3_S4x3x8192_0_2_1 := by
  show StableHlo.after hostOps0 (fun b => m (c, b)) (Proc.devRef .tc main_v0) = _
  after_results

/-- The second window's block at point t: entry (0, d, q) is coordinate d of point 2048·(t % 4) + q of batch t / 32
    of the second cloud. -/
theorem iblk1_apply (d : Fin 3) (q : Fin 2048) :
    (iblk (F := Ideal) m c 1 t : Vec Ideal S1x3x2048 .f32) (ix3 0 d q)
      = (m ((c : Thread nD τ).loc main_arg1) : FVec Ideal S4x8192x3 .f32)
          (ix3 ⟨t.val / 32, by have := t_lt t; omega⟩ ⟨t.val % 4 * 2048 + q.val, by have := t_lt t; have := q.isLt; omega⟩ d) := by
  obtain ⟨-, -, -, e0, e1, e2⟩ := idx_facts t
  have hb : t.val / 32 < 4 := by have := t_lt t; omega
  have hn : t.val % 4 * 2048 + q.val < 8192 := by have := t_lt t; have := q.isLt; omega
  unfold iblk
  rw [View.read_apply]
  show V m c main_v0 _ = _
  rw [V_main_v0]
  refine (congrArg _ (?_ : _ = (ix3 ⟨t.val / 32, hb⟩ d ⟨t.val % 4 * 2048 + q.val, hn⟩ : S4x3x8192.Idx))).trans
    (transpose_ix3_021_apply _ _ _ _ _)
  funext a
  apply Fin.ext
  match a with
  | ⟨0, _⟩ => show win0_1.index t (0 : Fin 3) * 1 + 1 * (0 : Fin 1).val = t.val / 32; rw [e0]; simp
  | ⟨1, _⟩ => show win0_1.index t (1 : Fin 3) * 3 + 1 * d.val = d.val; rw [e1]; omega
  | ⟨2, _⟩ => show win0_1.index t (2 : Fin 3) * 2048 + 1 * q.val = t.val % 4 * 2048 + q.val; rw [e2]; omega

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Under the precondition every entry of both clouds is a real number. -/
theorem finite_of_pre (hpre : Cert.Pre_KernelIdeal (hPre_finite_inputs := Cert.Pre_finite_inputs.Gen.facts) m) (c : Dev nD) :
    (∀ y : S4x8192x3.Idx, ∃ x : ℝ, (m ((c : Thread nD τ).loc main_arg0) : FVec Ideal S4x8192x3 .f32) y = (x : EReal))
    ∧ (∀ y : S4x8192x3.Idx, ∃ x : ℝ, (m ((c : Thread nD τ).loc main_arg1) : FVec Ideal S4x8192x3 .f32) y = (x : EReal)) := by
  have h := congrFun (hpre c) ValueIdx.ix0
  dsimp only [Cert.Pre_finite_inputs.fn] at h
  obtain ⟨h0, h1⟩ := IntOp.andi_eq_one.1 h
  refine ⟨fun y => ?_, fun y => ?_⟩
  · exact real_of_abs_lt_top _ (Host.reduce_andi_all _ _ _ _ _ h0 y)
  · exact real_of_abs_lt_top _ (Host.reduce_andi_all _ _ _ _ _ h1 y)

end Cert.KernelIdeal.BlockFacts

end
-- ==== Proof.KRun.lean ====
/-
  The idealized kernel's run with its result named: under the precondition (every input entry a real number) every
  weakly fair execution terminates without a fault, the arguments unchanged, and the result is the mean of the first
  cloud's least squared distances to the second cloud plus the mean of the second cloud's to the first.
-/
import proofs.«167252_j2542620639339_2_alg».proof.Proof.KTail
import proofs.«167252_j2542620639339_2_alg».proof.Proof.Final1
import proofs.«167252_j2542620639339_2_alg».proof.Proof.Final2
import proofs.«167252_j2542620639339_2_alg».proof.Proof.BlockFacts

set_option maxRecDepth 16384

noncomputable section

namespace Cert.KernelIdeal.KValue

open Cert.KernelIdeal Cert.KernelIdeal.Gen Cert.KernelIdeal.Body Cert.KernelIdeal.Step
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem run (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v8) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    have hf := Cert.KernelIdeal.BlockFacts.finite_of_pre m hpre c
    ⟨((h c).2 main_v8 (Pipeline.mem_restRefs_of main_v8 (by decide) (by decide))).trans
        (tail_eq m c
          (final2 m c (fun t p d => Cert.KernelIdeal.BlockFacts.iblk0_apply m c t p d) (fun t d q => Cert.KernelIdeal.BlockFacts.iblk1_apply m c t d q) hf.1 hf.2)
          (final3 m c (fun t p d => Cert.KernelIdeal.BlockFacts.iblk0_apply m c t p d) (fun t d q => Cert.KernelIdeal.BlockFacts.iblk1_apply m c t d q) hf.1 hf.2)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefValue.lean ====
import proofs.«167252_j2542620639339_2_alg».proof.Proof.Gen.ReferenceIdeal.Read
import proofs.«167252_j2542620639339_2_alg».proof.Proof.Gen.ReferenceIdeal.Run
import proofs.«167252_j2542620639339_2_alg».proof.Proof.Spec
import Idealize.ShloMosaic.PureOps.Reduce
import Idealize.ShloMosaic.PureOps.Ideal.Laws
import Idealize.ShloMosaic.Lib.ValueIdx

/-
  The reference program's value, read against the specification.

  The reference forms, for every batch `b` and every pair of points `r` (first cloud), `n` (second cloud), the number
  |u|² + |v|² − 2·⟨u, v⟩ with u = a0[b, r, ·], v = a1[b, n, ·]: two sums of three squares, each started from the zero word and
  carried to the pair by broadcasts that only repeat them, and a contraction of three products multiplied by the word of 2.
  That number is `Cert.Spec.sqd u v`, with no finiteness needed: 0 + x = x in the extended reals and both sides are the same
  expression. Its least value along `n`, a running minimum started from the word of +∞, is the infimum `Cert.Spec.D1`; along
  `r` it is `Cert.Spec.D2`: a minimum started at the top element and folded over a finite index set is `Finset.inf`.
-/

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The float words the reference spells -/

/-- The word `0x40000000` denotes 2. -/
theorem ofBits_two : Ideal.ofBits .f32 0x40000000#32 = 2 := by
  simp [Ideal.ofBits, Ideal.ieee, -EReal.coe_mul]; norm_num
  rfl

/-- The word `0x7F800000` denotes +∞, the top element. -/
theorem ofBits_top : Ideal.ofBits .f32 0x7F800000#32 = ⊤ := by
  simp [Ideal.ofBits, Ideal.ieee]

/-! ## Where each operand is read -/

/-- The squared norm of the first cloud's point is read, through its two broadcasts, at (b, r, ·). -/
theorem idx_sq0 (b : Fin 4) (r n : Fin 8192) (k : Fin 3) :
    idx_main_v1 (idx_main_v5 (idx_main_v7 (ix3 b r n))) k = ix3 b r k :=
  funext fun a => Fin.ext (by match a with | ⟨0, _⟩ => rfl | ⟨1, _⟩ => rfl | ⟨2, _⟩ => rfl)

/-- The squared norm of the second cloud's point is read, through its two broadcasts, at (b, n, ·). -/
theorem idx_sq1 (b : Fin 4) (r n : Fin 8192) (k : Fin 3) :
    idx_main_v3 (idx_main_v6 (idx_main_v8 (ix3 b r n))) k = ix3 b n k :=
  funext fun a => Fin.ext (by match a with | ⟨0, _⟩ => rfl | ⟨1, _⟩ => rfl | ⟨2, _⟩ => rfl)

/-- The contraction reads the first cloud at (b, r, k). -/
theorem lidx_eq (b : Fin 4) (r n : Fin 8192) (k : Fin 3) : lidx_main_v4 (ix3 b r n) k = ix3 b r k :=
  funext fun a => Fin.ext (by match a with | ⟨0, _⟩ => rfl | ⟨1, _⟩ => rfl | ⟨2, _⟩ => rfl)

/-- The contraction reads the second cloud at (b, n, k). -/
theorem ridx_eq (b : Fin 4) (r n : Fin 8192) (k : Fin 3) : ridx_main_v4 (ix3 b r n) k = ix3 b n k :=
  funext fun a => Fin.ext (by match a with | ⟨0, _⟩ => rfl | ⟨1, _⟩ => rfl | ⟨2, _⟩ => rfl)

/-! ## The pairwise squared distance -/

/-- At (b, r, n) the reference's array of pairwise distances holds `sqd` of point `r` of the first cloud and point `n` of the
    second, in batch `b`. -/
theorem dist_apply (a0 a1 : FVec Ideal S4x8192x3 .f32) (b : Fin 4) (r n : Fin 8192) :
    val_main_v12 (F := Ideal) a0 a1 (ix3 b r n)
      = Cert.Spec.sqd (fun d => a0 (ix3 b r d)) (fun d => a1 (ix3 b n d)) := by
  rw [val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply]
  simp only [val_main_v0_apply, val_main_v2_apply, val_main_cst_apply, val_main_cst_0_apply, idx_sq0, idx_sq1, lidx_eq, ridx_eq,
    Ideal.subf_def, Ideal.addf_def, Ideal.mulf_def, Ideal.ofBits_def, Ideal.ofBits_zero_f32, zero_add, ofBits_two]
  rfl

/-! ## A running minimum from +∞ is an infimum -/

/-- Folding `min` from the top element over a finite set is the infimum over it. -/
theorem fold_min_top_eq_inf {ι : Type} [DecidableEq ι] (s : Finset ι) (f : ι → EReal) :
    s.fold min (⊤ : EReal) f = s.inf f := by
  induction s using Finset.induction_on with
  | empty => rw [Finset.fold_empty, Finset.inf_empty]
  | insert a s ha ih => rw [Finset.fold_insert ha, Finset.inf_insert, ih]

/-- The index of the pairwise array over (b, r) whose coordinate along the last axis is `k` is (b, r, k). -/
theorem lift_last (h : S4x8192x8192.Reduces [2] S4x8192) (b : Fin 4) (r : Fin 8192) (k : Fin (S4x8192x8192.size 2)) :
    h.lift (ix2 b r) k = ix3 b r (⟨k.val, k.isLt⟩ : Fin 8192) := by
  funext c; apply Fin.ext
  fin_cases c <;> rfl

/-- The index of the pairwise array over (b, n) whose coordinate along the middle axis is `k` is (b, k, n). -/
theorem lift_mid (h : S4x8192x8192.Reduces [1] S4x8192) (b : Fin 4) (n : Fin 8192) (k : Fin (S4x8192x8192.size 1)) :
    h.lift (ix2 b n) k = ix3 b (⟨k.val, k.isLt⟩ : Fin 8192) n := by
  funext c; apply Fin.ext
  fin_cases c <;> rfl

/-- The minimum along the last axis, started from +∞, at (b, r): the infimum over `n` of the entries (b, r, n). -/
theorem hostMin_last (x : FVec Ideal S4x8192x8192 .f32) (b : Fin 4) (r : Fin 8192) :
    Host.reduce (FloatOps.minimumf (F := Ideal)) x (constant (F := Ideal) S_ .f32 0x7F800000#32)
        reducesTo_S4x8192x8192_S4x8192_d2 h_S_ (ix2 b r)
      = Finset.univ.inf fun n : Fin 8192 => x (ix3 b r n) := by
  have h : S4x8192x8192.Reduces [2] S4x8192 := by decide
  rw [Host.reduce_eq_fold_single FloatOps.minimumf x _ reducesTo_S4x8192x8192_S4x8192_d2 h h_S_]
  refine Eq.trans ?_ (fold_min_top_eq_inf (Finset.univ : Finset (Fin 8192)) fun n => x (ix3 b r n))
  have hf : (x ∘ h.lift (ix2 b r)) = fun n : Fin 8192 => x (ix3 b r n) := funext fun k => congrArg x (lift_last h b r k)
  have ht : (constant (F := Ideal) S_ .f32 0x7F800000#32) (Shape.Idx.first h_S_) = (⊤ : EReal) := ofBits_top
  rw [ht]
  exact congrArg (fun f => Finset.fold min (⊤ : EReal) f (Finset.univ : Finset (Fin 8192))) hf

/-- The minimum along the middle axis, started from +∞, at (b, n): the infimum over `r` of the entries (b, r, n). -/
theorem hostMin_mid (x : FVec Ideal S4x8192x8192 .f32) (b : Fin 4) (n : Fin 8192) :
    Host.reduce (FloatOps.minimumf (F := Ideal)) x (constant (F := Ideal) S_ .f32 0x7F800000#32)
        reducesTo_S4x8192x8192_S4x8192_d1 h_S_ (ix2 b n)
      = Finset.univ.inf fun r : Fin 8192 => x (ix3 b r n) := by
  have h : S4x8192x8192.Reduces [1] S4x8192 := by decide
  rw [Host.reduce_eq_fold_single FloatOps.minimumf x _ reducesTo_S4x8192x8192_S4x8192_d1 h h_S_]
  refine Eq.trans ?_ (fold_min_top_eq_inf (Finset.univ : Finset (Fin 8192)) fun r => x (ix3 b r n))
  have hf : (x ∘ h.lift (ix2 b n)) = fun r : Fin 8192 => x (ix3 b r n) := funext fun k => congrArg x (lift_mid h b n k)
  have ht : (constant (F := Ideal) S_ .f32 0x7F800000#32) (Shape.Idx.first h_S_) = (⊤ : EReal) := ofBits_top
  rw [ht]
  exact congrArg (fun f => Finset.fold min (⊤ : EReal) f (Finset.univ : Finset (Fin 8192))) hf

/-! ## The two arrays of least distances, and the result -/

/-- The reference's minimum along the second cloud is `D1`: for each point of the first cloud, the least squared distance to a
    point of the second. -/
theorem ref_dist1 (a0 a1 : FVec Ideal S4x8192x3 .f32) :
    Host.reduce (FloatOps.minimumf (F := Ideal)) (subf (addf (broadcastInDim S4x8192x8192 ![0, 1, 2] bcast_S4x8192x1_S4x8192x8192_0_1_2 (broadcastInDim S4x8192x1 ![0, 1] bcast_S4x8192_S4x8192x1_0_1 (Host.reduceAdd (F := Ideal) (mulf (a0) (a0)) (constant (F := Ideal) S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (F := Ideal) (mulf (a1) (a1)) (constant (F := Ideal) S_ .f32 0x00000000#32) reducesTo_S4x8192x3_S4x8192_d2 h_S_)))) (mulf (broadcastInDim S4x8192x8192 ![] bcast_S_S4x8192x8192 (constant (F := Ideal) S_ .f32 0x40000000#32)) (Host.dotGeneral (F := Ideal) dot_S4x8192x3_S4x8192x3_S4x8192x8192_2_2_1_1_0_0 none (a0) (a1)))) (constant (F := Ideal) S_ .f32 0x7F800000#32) reducesTo_S4x8192x8192_S4x8192_d2 h_S_
      = Cert.Spec.D1 a0 a1 := by
  funext i
  obtain ⟨b, r, rfl⟩ : ∃ (b : Fin 4) (r : Fin 8192), i = ix2 b r := ⟨i 0, i 1, eq_ix2 i⟩
  refine (hostMin_last _ b r).trans ?_
  show _ = Finset.univ.inf fun n : Fin 8192 => Cert.Spec.sqd (fun d => a0 (ix3 b r d)) (fun d => a1 (ix3 b n d))
  exact congrArg (Finset.univ.inf) (funext fun n => dist_apply a0 a1 b r n)

/-- The reference's minimum along the first cloud is `D2`: for each point of the second cloud, the least squared distance to a
    point of the first. -/
theorem ref_dist2 (a0 a1 : FVec Ideal S4x8192x3 .f32) :
    Host.reduce (FloatOps.minimumf (F := Ideal)) (subf (addf (broadcastInDim S4x8192x8192 ![0, 1, 2] bcast_S4x8192x1_S4x8192x8192_0_1_2 (broadcastInDim S4x8192x1 ![0, 1] bcast_S4x8192_S4x8192x1_0_1 (Host.reduceAdd (F := Ideal) (mulf (a0) (a0)) (constant (F := Ideal) S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (F := Ideal) (mulf (a1) (a1)) (constant (F := Ideal) S_ .f32 0x00000000#32) reducesTo_S4x8192x3_S4x8192_d2 h_S_)))) (mulf (broadcastInDim S4x8192x8192 ![] bcast_S_S4x8192x8192 (constant (F := Ideal) S_ .f32 0x40000000#32)) (Host.dotGeneral (F := Ideal) dot_S4x8192x3_S4x8192x3_S4x8192x8192_2_2_1_1_0_0 none (a0) (a1)))) (constant (F := Ideal) S_ .f32 0x7F800000#32) reducesTo_S4x8192x8192_S4x8192_d1 h_S_
      = Cert.Spec.D2 a0 a1 := by
  funext i
  obtain ⟨b, n, rfl⟩ : ∃ (b : Fin 4) (n : Fin 8192), i = ix2 b n := ⟨i 0, i 1, eq_ix2 i⟩
  refine (hostMin_mid _ b n).trans ?_
  show _ = Finset.univ.inf fun r : Fin 8192 => Cert.Spec.sqd (fun d => a0 (ix3 b r d)) (fun d => a1 (ix3 b n d))
  exact congrArg (Finset.univ.inf) (funext fun r => dist_apply a0 a1 b r n)

/-- The reference's result: the mean of `D1` plus the mean of `D2`, each a sum from the zero word divided by the word of 32768. -/
theorem ref_result (a0 a1 : FVec Ideal S4x8192x3 .f32) :
    addf (Host.divf (F := Ideal) (Host.reduceAdd (F := Ideal) (Host.reduce (FloatOps.minimumf (F := Ideal)) (subf (addf (broadcastInDim S4x8192x8192 ![0, 1, 2] bcast_S4x8192x1_S4x8192x8192_0_1_2 (broadcastInDim S4x8192x1 ![0, 1] bcast_S4x8192_S4x8192x1_0_1 (Host.reduceAdd (F := Ideal) (mulf (a0) (a0)) (constant (F := Ideal) S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (F := Ideal) (mulf (a1) (a1)) (constant (F := Ideal) S_ .f32 0x00000000#32) reducesTo_S4x8192x3_S4x8192_d2 h_S_)))) (mulf (broadcastInDim S4x8192x8192 ![] bcast_S_S4x8192x8192 (constant (F := Ideal) S_ .f32 0x40000000#32)) (Host.dotGeneral (F := Ideal) dot_S4x8192x3_S4x8192x3_S4x8192x8192_2_2_1_1_0_0 none (a0) (a1)))) (constant (F := Ideal) S_ .f32 0x7F800000#32) reducesTo_S4x8192x8192_S4x8192_d2 h_S_) (constant (F := Ideal) S_ .f32 0x00000000#32) reducesTo_S4x8192_S_d0_1 h_S_) (constant (F := Ideal) S_ .f32 0x47000000#32)) (Host.divf (F := Ideal) (Host.reduceAdd (F := Ideal) (Host.reduce (FloatOps.minimumf (F := Ideal)) (subf (addf (broadcastInDim S4x8192x8192 ![0, 1, 2] bcast_S4x8192x1_S4x8192x8192_0_1_2 (broadcastInDim S4x8192x1 ![0, 1] bcast_S4x8192_S4x8192x1_0_1 (Host.reduceAdd (F := Ideal) (mulf (a0) (a0)) (constant (F := Ideal) S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (F := Ideal) (mulf (a1) (a1)) (constant (F := Ideal) S_ .f32 0x00000000#32) reducesTo_S4x8192x3_S4x8192_d2 h_S_)))) (mulf (broadcastInDim S4x8192x8192 ![] bcast_S_S4x8192x8192 (constant (F := Ideal) S_ .f32 0x40000000#32)) (Host.dotGeneral (F := Ideal) dot_S4x8192x3_S4x8192x3_S4x8192x8192_2_2_1_1_0_0 none (a0) (a1)))) (constant (F := Ideal) S_ .f32 0x7F800000#32) reducesTo_S4x8192x8192_S4x8192_d1 h_S_) (constant (F := Ideal) S_ .f32 0x00000000#32) reducesTo_S4x8192_S_d0_1 h_S_) (constant (F := Ideal) S_ .f32 0x47000000#32))
      = addf (Host.divf (F := Ideal) (Host.reduceAdd (F := Ideal) ((Cert.Spec.D1 a0 a1)) (constant (F := Ideal) S_ .f32 0x00000000#32) reducesTo_S4x8192_S_d0_1 h_S_) (constant (F := Ideal) S_ .f32 0x47000000#32)) (Host.divf (F := Ideal) (Host.reduceAdd (F := Ideal) ((Cert.Spec.D2 a0 a1)) (constant (F := Ideal) S_ .f32 0x00000000#32) reducesTo_S4x8192_S_d0_1 h_S_) (constant (F := Ideal) S_ .f32 0x47000000#32)) := by
  rw [ref_dist1, ref_dist2]

end Cert.ReferenceIdeal.RefValue

end
-- ==== Proof.lean ====
/-
  The certificate of the chamfer-distance kernel against its reference.

  Both programs take two clouds of 4 × 8192 points of ℝ³ and return the mean, over the first cloud, of each point's
  least squared distance to the second cloud, plus the same mean with the clouds exchanged. The reference forms all
  8192 × 8192 squared distances |u|² + |v|² − 2⟨u, v⟩ of a batch and takes minima along each axis. The kernel walks a
  grid of 4 × 8 × 4 points; at each it multiplies the 1024 × 8 matrix [u, |u|², 1, 0, 0, 0] by the 8 × 2048 matrix
  [−2v; 1; |v|²; 0; 0; 0], whose entries are the same squared distances when every coordinate is a real number (the
  precondition), and lowers two resident blocks of running minima, reset to +∞ at the first point of a batch and
  written back after its last. A minimum over a finite family does not depend on the order or grouping in which it is
  taken, so after a batch's 32 points each running minimum is the least squared distance over the whole opposite
  cloud; the host lines that average the two arrays are the same in both programs.

  The three frames: each kernel program's frame run is the library's launch theorem applied to the body's two runs
  (Body.lean and BodyRuns.lean, written once for any float instance, and their copies for the word-level program); the
  reference's is its generated run with the result dropped. The idealization rewrote nothing, so `preserves` is trivial.
-/
import proofs.«167252_j2542620639339_2_alg».proof.Defs
import proofs.«167252_j2542620639339_2_alg».proof.Proof.Gen.Kernel
import proofs.«167252_j2542620639339_2_alg».proof.Proof.Gen.KernelIdeal
import proofs.«167252_j2542620639339_2_alg».proof.Proof.Gen.ReferenceIdeal
import proofs.«167252_j2542620639339_2_alg».proof.Proof.Gen.Pre_finite_inputs
import proofs.«167252_j2542620639339_2_alg».proof.Proof.BitsBody
import proofs.«167252_j2542620639339_2_alg».proof.Proof.Body
import proofs.«167252_j2542620639339_2_alg».proof.Proof.KRun
import proofs.«167252_j2542620639339_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the two clouds both idealized programs end at the same number: the mean of the first
    cloud's least squared distances plus the mean of the second cloud's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.kres m c, Cert.KernelIdeal.KValue.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.RefValue.ref_result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
